-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_

variable [Facts]

def fn_part2 {F : FTy → Type} [FloatOps F] (main_arg8 : FVec F S512x256 .f32) (main_arg9 : FVec F S256 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S128 .f32) (main_arg6 : FVec F S128x512 .f32) (main_arg7 : FVec F S512 .f32) (main_arg8 : FVec F S512x256 .f32) (main_arg9 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x512 .f32 := Host.absf main_arg6
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) (main_arg6 : FVec F S128x512 .f32) (main_arg7 : FVec F S512 .f32) (main_arg8 : FVec F S512x256 .f32) (main_arg9 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S2000x256 : Shape := ⟨2, ![2000, 256]⟩
abbrev S800000x256 : Shape := ⟨2, ![800000, 256]⟩
abbrev S2000x1 : Shape := ⟨2, ![2000, 1]⟩
abbrev S1x128 : Shape := ⟨2, ![1, 128]⟩
abbrev S50000x128 : Shape := ⟨2, ![50000, 128]⟩
abbrev S2000x128 : Shape := ⟨2, ![2000, 128]⟩
abbrev S800000x128 : Shape := ⟨2, ![800000, 128]⟩
abbrev S1x512 : Shape := ⟨2, ![1, 512]⟩
abbrev S50000x512 : Shape := ⟨2, ![50000, 512]⟩
abbrev S2000x512 : Shape := ⟨2, ![2000, 512]⟩

abbrev nBuf : Space → Nat
  | .hbm => 57
  | .vmem => 40
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S50000x1, .f32⟩
  | .hbm, ⟨21, _⟩ => ⟨S1x256, .f32⟩
  | .hbm, ⟨22, _⟩ => ⟨S50000x256, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x256, .f32⟩
  | .hbm, ⟨32, _⟩ => ⟨S_, .f32⟩
  | .hbm, ⟨33, _⟩ => ⟨S50000x256, .f32⟩
  | .hbm, ⟨34, _⟩ => ⟨S800000x1, .i32⟩
  | .hbm, ⟨35, _⟩ => ⟨S50000x256, .f32⟩
  | .hbm, ⟨36, _⟩ => ⟨S50000x256, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S1x512, .f32⟩
  | .hbm, ⟨54, _⟩ => ⟨S50000x512, .f32⟩
  | .hbm, ⟨55, _⟩ => ⟨S1x256, .f32⟩
  | .hbm, ⟨56, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x1, .f32⟩
  | .local _ .vmem, ⟨9, _⟩ => ⟨S2000x1, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x512, .f32⟩
  | .local _ .vmem, ⟨31, _⟩ => ⟨S1x512, .f32⟩
  | .local _ .vmem, ⟨32, _⟩ => ⟨S2000x512, .f32⟩
  | .local _ .vmem, ⟨33, _⟩ => ⟨S2000x512, .f32⟩
  | .local _ .vmem, ⟨34, _⟩ => ⟨S2000x512, .f32⟩
  | .local _ .vmem, ⟨35, _⟩ => ⟨S2000x512, .f32⟩
  | .local _ .vmem, ⟨36, _⟩ => ⟨S512x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S50000x256 : S_.BroadcastsInDim S50000x256 (![] : Fin 0 → Fin S50000x256.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x256_S2000x256 : S2000x256.ShapeCasts S2000x256
  broadcasts_S2000x1_S2000x256 : S2000x1.Broadcasts S2000x256
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  broadcasts_S2000x1_S2000x128 : S2000x1.Broadcasts S2000x128
  shapeCasts_S512_S1x512 : S512.ShapeCasts S1x512
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x512.size a ≤ S128x512.size a
  hwx4_1 : ∀ i : grid4.Coords, EltTy.bits .f32 = 32 ∨ (Rect.block (s := S128x512) S128x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x512.size a ≤ S50000x512.size a
  hwx4_3 : ∀ i : grid4.Coords, EltTy.bits .f32 = 32 ∨ (Rect.block (s := S50000x512) S2000x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S512x256.size a
  hwx5_1 : ∀ i : grid5.Coords, EltTy.bits .f32 = 32 ∨ (Rect.block (s := S512x256) S512x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v33) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v34) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v34) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S2000x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v36) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S512x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v37) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v38) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S1x800000 : Shape := ⟨2, ![1, 800000]⟩
abbrev S800000 : Shape := ⟨1, ![800000]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S50000x512 : Shape := ⟨2, ![50000, 512]⟩
abbrev S1x512 : Shape := ⟨2, ![1, 512]⟩

abbrev nBuf : Space → Nat
  | .hbm => 91
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x256, .f32⟩
  | .hbm, ⟨15, _⟩ => ⟨S1x256, .f32⟩
  | .hbm, ⟨16, _⟩ => ⟨S50000x256, .f32⟩
  | .hbm, ⟨17, _⟩ => ⟨S50000x256, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S_, .f32⟩
  | .hbm, ⟨28, _⟩ => ⟨S50000x256, .f32⟩
  | .hbm, ⟨29, _⟩ => ⟨S800000x1, .i32⟩
  | .hbm, ⟨30, _⟩ => ⟨S50000x256, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x512, .f32⟩
  | .hbm, ⟨81, _⟩ => ⟨S1x512, .f32⟩
  | .hbm, ⟨82, _⟩ => ⟨S50000x512, .f32⟩
  | .hbm, ⟨83, _⟩ => ⟨S50000x512, .f32⟩
  | .hbm, ⟨84, _⟩ => ⟨S_, .f32⟩
  | .hbm, ⟨85, _⟩ => ⟨S50000x512, .f32⟩
  | .hbm, ⟨86, _⟩ => ⟨S50000x512, .f32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call2_cst : Ref sig .tc := ⟨.hbm, 84, rfl⟩
abbrev main_call2_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x512_S50000x512_1_0_0_1_n_n_wf : DotDims.WF S50000x128 S128x512 S50000x512 [1] [0] [0] [1] [] []
  dot_S50000x512_S512x256_S50000x256_1_0_0_1_n_n_wf : DotDims.WF S50000x512 S512x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.KernelRun.lean ====
/-
  The idealized kernel's run, with every buffer that outlives the regions read at the end.

  @main is twelve segments: six stretches of host operations, each followed by one tiled region. The buffer contents at
  every segment boundary are a fold from the launch memory (`W0 … W12`): a host stretch applies its operations in
  order, a region leaves each of its arrays at what its write-backs make of it and every other buffer as it found it.
  Every weakly fair execution terminates with every unscoped buffer at the last boundary's contents `W12` (`run_all`).
  Read at the two result buffers and at the ten arguments (which no segment writes, so that the fold walks back to
  the launch memory there) this is `run_results`: the reconstruction and the latent code end at `W12` of their
  buffers, the arguments end as launched.
-/
import proofs.«121067_j84189948936516_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped buffer
    of each core holds the last boundary's contents: the launch over the twelve segments (no core owes anything at
    launch, the first thread state is the unscoped buffers at the launch memory), the last thread state — every
    unscoped buffer held at `W12` — read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The two results end at the last boundary's contents of their buffers, the ten arguments as launched. -/
theorem run_results : θ_run defs (onTc (τ := τ) (main (F := F))) ⟨m, fun _ => 0, ρ⟩ (fun r => ∀ c : Dev nD,
      r.2.mem ((c.tc : Thread nD τ).loc main_v38) = W12 m ρ c (Proc.devRef .tc main_v38)
      ∧ r.2.mem ((c.tc : Thread nD τ).loc main_v34) = W12 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v38 (by decide)),
       h c _ (mem_uc main_v34 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)
    (run_all m ρ)

end Cert.KernelIdeal.Results

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«121067_j84189948936516_1_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibRowBlocks.lean ====
/-
  Row-wise layers over the extended reals, on a block of rows and on the whole array alike.

  A dense layer sends row `r` of its input to `q ↦ (∑ k, x[r, k] · w[k, q]) + b[0, q]` (`denseRows`); a graph layer's
  rectified combination at node `r` and column `q` is `leaky (agg[r, q] + ht[r, q] · s[r, 0] + b[0, q])` with a
  per-node factor column `s` and a bias row `b` (`actRows`; `leakyE` is the leaky rectifier on one extended real,
  spelt with the comparison and selection the programs use). Both are stated for arrays with ANY number of rows, so
  one function describes a block of rows and the whole array. Read here: the device's block computation — a product
  into a zero accumulator (a change of float format is the identity) plus a broadcast bias row; the sum, product,
  comparison and selection of the combination — as these functions (`device_dense`, `device_act`); and, for a block
  holding rows `R·n …` of an array, the block's layer at `(p, q)` as the array's layer at `(R·n + p, q)`
  (`dense_block`, `act_block`): the step from a tiled region's blocks to one whole-array function.
-/
import proofs.«121067_j84189948936516_1_alg».proof.Proof.LibRowExtras
import proofs.«121067_j84189948936516_1_alg».proof.Proof.LibColumnBroadcast
import Idealize.ShloMosaic.PureOps.Ideal.Laws

noncomputable section

namespace Cert.Layers

open Idealize.ShloMosaic Idealize.ShloMosaic.ValueIdx Cert.RowLayers

/-! ## The leaky rectifier on one extended real -/

/-- `x` where `x ≥ 0`, else `slope · x`, with the comparison and the selection as the programs spell them. -/
def leakyE (x : EReal) : EReal :=
  Scalar.select (FloatOps.cmpf (F := Ideal) (φ := .f32) .oge x (Ideal.ofBits .f32 0x00000000#32)) x
    (Ideal.ofBits .f32 0x3C23D70A#32 * x)

/-! ## The stages on arrays of any number of rows -/

/-- A dense layer row by row: entry `(r, q)` is `(∑ k, x[r, k] · w[k, q]) + b[0, q]`. -/
def denseRows {a K b : ℕ} (x : (⟨2, ![a, K]⟩ : Shape).Idx → EReal) (w : (⟨2, ![K, b]⟩ : Shape).Idx → EReal)
    (bias : (⟨2, ![1, b]⟩ : Shape).Idx → EReal) : (⟨2, ![a, b]⟩ : Shape).Idx → EReal :=
  fun i => dense (rowOf x (i 0)) w (rowOf bias 0) (i 1)

theorem denseRows_ix2 {a K b : ℕ} (x : (⟨2, ![a, K]⟩ : Shape).Idx → EReal) (w : (⟨2, ![K, b]⟩ : Shape).Idx → EReal)
    (bias : (⟨2, ![1, b]⟩ : Shape).Idx → EReal) (r : Fin a) (q : Fin b) :
    denseRows x w bias (ix2 r q) = (∑ k : Fin K, x (ix2 r k) * w (ix2 k q)) + bias (ix2 (0 : Fin 1) q) := rfl

/-- The graph layer's combination entry by entry: `leaky (agg[r, q] + ht[r, q] · s[r, 0] + b[0, q])`. -/
def actRows {a b : ℕ} (agg ht : (⟨2, ![a, b]⟩ : Shape).Idx → EReal) (s : (⟨2, ![a, 1]⟩ : Shape).Idx → EReal)
    (bias : (⟨2, ![1, b]⟩ : Shape).Idx → EReal) : (⟨2, ![a, b]⟩ : Shape).Idx → EReal :=
  fun i => leakyE ((agg i + ht i * s (ix2 (i 0) (0 : Fin 1))) + bias (ix2 (0 : Fin 1) (i 1)))

theorem actRows_ix2 {a b : ℕ} (agg ht : (⟨2, ![a, b]⟩ : Shape).Idx → EReal) (s : (⟨2, ![a, 1]⟩ : Shape).Idx → EReal)
    (bias : (⟨2, ![1, b]⟩ : Shape).Idx → EReal) (r : Fin a) (q : Fin b) :
    actRows agg ht s bias (ix2 r q)
      = leakyE ((agg (ix2 r q) + ht (ix2 r q) * s (ix2 r (0 : Fin 1))) + bias (ix2 (0 : Fin 1) q)) := rfl

/-! ## The device's block computations are these functions -/

/-- The device's dense layer on a block: a product into a zero accumulator (the operands' change of format is the
    identity here) plus the bias row broadcast down the rows. -/
theorem device_dense {a K b : ℕ} {d : DotDims ⟨2, ![a, K]⟩ ⟨2, ![K, b]⟩ ⟨2, ![a, b]⟩} (H : RowsTimesCols d)
    (x : FVec Ideal ⟨2, ![a, K]⟩ .f32) (w : FVec Ideal ⟨2, ![K, b]⟩ .f32) (bias : FVec Ideal ⟨2, ![1, b]⟩ .f32)
    (hx : FTy.bf16.bits < FTy.f32.bits) (hB : (⟨2, ![1, b]⟩ : Shape).Broadcasts ⟨2, ![a, b]⟩) :
    addf (matmul d none (truncf .bf16 x hx) (truncf .bf16 w hx) (constant (F := Ideal) ⟨2, ![a, b]⟩ .f32 0x00000000#32))
        (broadcastTo ⟨2, ![a, b]⟩ bias hB)
      = denseRows x w bias := by
  funext i
  obtain ⟨r, q, rfl⟩ : ∃ (r : Fin a) (q : Fin b), i = ix2 r q := ⟨i 0, i 1, eq_ix2 i⟩
  exact congrFun (rowOf_dense_device H none (truncf .bf16 x hx) (truncf .bf16 w hx) bias hB r) q

/-- The device's combination on a block. -/
theorem device_act {a b : ℕ} (agg ht : FVec Ideal ⟨2, ![a, b]⟩ .f32) (s : FVec Ideal ⟨2, ![a, 1]⟩ .f32)
    (bias : FVec Ideal ⟨2, ![1, b]⟩ .f32) (hS : (⟨2, ![a, 1]⟩ : Shape).Broadcasts ⟨2, ![a, b]⟩)
    (hB : (⟨2, ![1, b]⟩ : Shape).Broadcasts ⟨2, ![a, b]⟩) :
    select (cmpf .oge (addf (addf agg (mulf ht (broadcastTo ⟨2, ![a, b]⟩ s hS))) (broadcastTo ⟨2, ![a, b]⟩ bias hB))
          (broadcast ⟨2, ![a, b]⟩ (Scalar.ofBits (F := Ideal) .f32 0x00000000#32)))
        (addf (addf agg (mulf ht (broadcastTo ⟨2, ![a, b]⟩ s hS))) (broadcastTo ⟨2, ![a, b]⟩ bias hB))
        (mulf (broadcast ⟨2, ![a, b]⟩ (Scalar.ofBits (F := Ideal) .f32 0x3C23D70A#32))
          (addf (addf agg (mulf ht (broadcastTo ⟨2, ![a, b]⟩ s hS))) (broadcastTo ⟨2, ![a, b]⟩ bias hB)))
      = actRows agg ht s bias := by
  funext i
  obtain ⟨r, q, rfl⟩ : ∃ (r : Fin a) (q : Fin b), i = ix2 r q := ⟨i 0, i 1, eq_ix2 i⟩
  rw [actRows_ix2]
  simp only [select_apply, cmpf_apply, mulf_apply, addf_apply, broadcast_apply,
    Cert.ColumnBroadcast.broadcastTo_a1_ab_apply, broadcastTo_1b_ab_apply]
  rfl

/-! ## A block of rows against the whole array -/

/-- If a block `x0` holds rows `R·n …` of `X`, the dense layer of the block at `(p, q)` is the dense layer of `X` at
    `(R·n + p, q)`. -/
theorem dense_block {A a K b R : ℕ} (X : (⟨2, ![A, K]⟩ : Shape).Idx → EReal) (W : (⟨2, ![K, b]⟩ : Shape).Idx → EReal)
    (B : (⟨2, ![1, b]⟩ : Shape).Idx → EReal) (x0 : (⟨2, ![a, K]⟩ : Shape).Idx → EReal) (n : ℕ)
    (h0 : ∀ (y : (⟨2, ![a, K]⟩ : Shape).Idx) (k : (⟨2, ![A, K]⟩ : Shape).Idx),
      (k 0).val = R * n + (y 0).val → (k 1).val = (y 1).val → x0 y = X k)
    (y : (⟨2, ![a, b]⟩ : Shape).Idx) (i : (⟨2, ![A, b]⟩ : Shape).Idx)
    (hi0 : (i 0).val = R * n + (y 0).val) (hi1 : (i 1).val = (y 1).val) :
    denseRows x0 W B y = denseRows X W B i := by
  obtain ⟨p, q, rfl⟩ : ∃ (p : Fin a) (q : Fin b), y = ix2 p q := ⟨y 0, y 1, eq_ix2 y⟩
  obtain ⟨r, q', rfl⟩ : ∃ (r : Fin A) (q' : Fin b), i = ix2 r q' := ⟨i 0, i 1, eq_ix2 i⟩
  obtain rfl : q' = q := Fin.ext hi1
  rw [denseRows_ix2, denseRows_ix2]
  congr 1
  exact Finset.sum_congr rfl fun k _ => by rw [h0 (ix2 p k) (ix2 r k) hi0 rfl]

/-- The same for the combination: blocks of the aggregate, of the projected features and of the per-node factor
    holding rows `R·n …` of their arrays. -/
theorem act_block {A a b R : ℕ} (AGG HT : (⟨2, ![A, b]⟩ : Shape).Idx → EReal) (S : (⟨2, ![A, 1]⟩ : Shape).Idx → EReal)
    (B : (⟨2, ![1, b]⟩ : Shape).Idx → EReal) (x0 x1 : (⟨2, ![a, b]⟩ : Shape).Idx → EReal)
    (x2 : (⟨2, ![a, 1]⟩ : Shape).Idx → EReal) (n : ℕ)
    (h0 : ∀ (y : (⟨2, ![a, b]⟩ : Shape).Idx) (k : (⟨2, ![A, b]⟩ : Shape).Idx),
      (k 0).val = R * n + (y 0).val → (k 1).val = (y 1).val → x0 y = AGG k)
    (h1 : ∀ (y : (⟨2, ![a, b]⟩ : Shape).Idx) (k : (⟨2, ![A, b]⟩ : Shape).Idx),
      (k 0).val = R * n + (y 0).val → (k 1).val = (y 1).val → x1 y = HT k)
    (h2 : ∀ (y : (⟨2, ![a, 1]⟩ : Shape).Idx) (k : (⟨2, ![A, 1]⟩ : Shape).Idx),
      (k 0).val = R * n + (y 0).val → (k 1).val = (y 1).val → x2 y = S k)
    (y : (⟨2, ![a, b]⟩ : Shape).Idx) (i : (⟨2, ![A, b]⟩ : Shape).Idx)
    (hi0 : (i 0).val = R * n + (y 0).val) (hi1 : (i 1).val = (y 1).val) :
    actRows x0 x1 x2 B y = actRows AGG HT S B i := by
  obtain ⟨p, q, rfl⟩ : ∃ (p : Fin a) (q : Fin b), y = ix2 p q := ⟨y 0, y 1, eq_ix2 y⟩
  obtain ⟨r, q', rfl⟩ : ∃ (r : Fin A) (q' : Fin b), i = ix2 r q' := ⟨i 0, i 1, eq_ix2 i⟩
  obtain rfl : q' = q := Fin.ext hi1
  rw [actRows_ix2, actRows_ix2, h0 (ix2 p q') (ix2 r q') hi0 rfl, h1 (ix2 p q') (ix2 r q') hi0 rfl,
    h2 (ix2 p (0 : Fin 1)) (ix2 r (0 : Fin 1)) hi0 rfl]

end Cert.Layers

end
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.LibMeanAggRows.lean ====
/-
  The node-wise stages of a graph auto-encoder with mean aggregation, over the extended reals, for arrays with any
  number of rows (so that one function describes a block of rows and the whole array).

  One encoder layer first projects every node's features, `xt = x·W + b` (a dense layer: `denseRows` of the row
  library), then averages the projected features of the node's in-neighbours and adds the node's own projection
  through a rectifier: with `S[r, q]` the sum over the incoming edges and `cnt[r]` the in-degree, entry `(r, q)` of
  the layer's output is `max (S[r, q] / max cnt[r] 1) 0 + xt[r, q]` (`aggRows`; the in-degree is kept as a column
  `[a, 1]`). The decoder is a dense layer through a rectifier (`reluRows`) and a dense layer.
  Read here as these functions: the device's block computations (a matrix product into a zero accumulator plus a
  bias row broadcast down the rows; the quotient by the column broadcast along the lanes, the two maxima with splat
  scalars and the sum), the host's whole-array spellings (a `dot_general` plus a bias vector given a unit axis and
  broadcast; the in-degree vector clamped, made a column and broadcast along the features before the quotient), and
  the step from a block holding rows `R·n …` of the arrays to the arrays themselves.
  No law of arithmetic is used: both programs compute the same expression entry by entry.
-/
import proofs.«121067_j84189948936516_1_alg».proof.Proof.LibRowBlocks
import proofs.«121067_j84189948936516_1_alg».proof.Proof.LibColumnForms
import Idealize.ShloMosaic.PureOps.Ideal.Laws

noncomputable section

namespace Cert.GraphAE

open Idealize.ShloMosaic Idealize.ShloMosaic.ValueIdx Cert.RowLayers Cert.Layers

/-! ## The stages -/

/-- Mean aggregation, rectifier and residual, entry by entry: `max (S[r, q] / max cnt[r, 0] 1) 0 + xt[r, q]`. -/
def aggRows {a b : ℕ} (S : (⟨2, ![a, b]⟩ : Shape).Idx → EReal) (cnt : (⟨2, ![a, 1]⟩ : Shape).Idx → EReal)
    (xt : (⟨2, ![a, b]⟩ : Shape).Idx → EReal) : (⟨2, ![a, b]⟩ : Shape).Idx → EReal :=
  fun i => max (Ideal.div (S i) (max (cnt (ix2 (i 0) (0 : Fin 1))) (Ideal.ofBits .f32 0x3F800000#32)))
      (Ideal.ofBits .f32 0x00000000#32) + xt i

theorem aggRows_ix2 {a b : ℕ} (S : (⟨2, ![a, b]⟩ : Shape).Idx → EReal) (cnt : (⟨2, ![a, 1]⟩ : Shape).Idx → EReal)
    (xt : (⟨2, ![a, b]⟩ : Shape).Idx → EReal) (r : Fin a) (q : Fin b) :
    aggRows S cnt xt (ix2 r q)
      = max (Ideal.div (S (ix2 r q)) (max (cnt (ix2 r (0 : Fin 1))) (Ideal.ofBits .f32 0x3F800000#32)))
          (Ideal.ofBits .f32 0x00000000#32) + xt (ix2 r q) := rfl

/-- The rectifier entry by entry: `max y[r, q] 0`. -/
def reluRows {a b : ℕ} (y : (⟨2, ![a, b]⟩ : Shape).Idx → EReal) : (⟨2, ![a, b]⟩ : Shape).Idx → EReal :=
  fun i => max (y i) (Ideal.ofBits .f32 0x00000000#32)

/-! ## The plain dimension numbers -/

/-- The dimension numbers `⟨[1], [0], [0], [1], [], []⟩` of an `[M, K] × [K, N]` product say "rows times columns": one
    contracted axis of extent `K`, the left operand read at (output row, contracted position), the right one at
    (contracted position, output column). -/
theorem plain_rowsTimesCols (M K N : ℕ) : RowsTimesCols (DotDims.plain M K N) where
  rank := rfl
  size := rfl
  lhs0 := fun j q => by
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  lhs1 := fun j q => (DotDims.plain M K N).lhsIdx_val_of_single rfl j q
  rhs0 := fun j q => (DotDims.plain M K N).rhsIdx_val_of_single rfl j q
  rhs1 := fun j q => by
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-! ## The device's block computations -/

/-- The device's dense layer on a block: a product into a zero accumulator plus the bias row broadcast down the rows. -/
theorem device_dense {a K b : ℕ} {d : DotDims ⟨2, ![a, K]⟩ ⟨2, ![K, b]⟩ ⟨2, ![a, b]⟩} (H : RowsTimesCols d)
    (x : FVec Ideal ⟨2, ![a, K]⟩ .f32) (w : FVec Ideal ⟨2, ![K, b]⟩ .f32) (bias : FVec Ideal ⟨2, ![1, b]⟩ .f32)
    (hB : (⟨2, ![1, b]⟩ : Shape).Broadcasts ⟨2, ![a, b]⟩) :
    addf (matmul d none x w (constant (F := Ideal) ⟨2, ![a, b]⟩ .f32 0x00000000#32)) (broadcastTo ⟨2, ![a, b]⟩ bias hB)
      = denseRows x w bias := by
  funext i
  obtain ⟨r, q, rfl⟩ : ∃ (r : Fin a) (q : Fin b), i = ix2 r q := ⟨i 0, i 1, eq_ix2 i⟩
  exact congrFun (rowOf_dense_device H none x w bias hB r) q

/-- The device's aggregation step on a block: the quotient by the clamped in-degree column broadcast along the lanes,
    the rectifier, and the node's own projection added. -/
theorem device_agg {a b : ℕ} (S xt : FVec Ideal ⟨2, ![a, b]⟩ .f32) (cnt : FVec Ideal ⟨2, ![a, 1]⟩ .f32)
    (hS : (⟨2, ![a, 1]⟩ : Shape).Broadcasts ⟨2, ![a, b]⟩) :
    addf (maximumf (divf S (broadcastTo ⟨2, ![a, b]⟩
            (maximumf cnt (broadcast ⟨2, ![a, 1]⟩ (Scalar.ofBits (F := Ideal) .f32 0x3F800000#32))) hS))
          (broadcast ⟨2, ![a, b]⟩ (Scalar.ofBits (F := Ideal) .f32 0x00000000#32))) xt
      = aggRows S cnt xt := by
  funext i
  obtain ⟨r, q, rfl⟩ : ∃ (r : Fin a) (q : Fin b), i = ix2 r q := ⟨i 0, i 1, eq_ix2 i⟩
  rw [aggRows_ix2]
  simp only [addf_apply, maximumf_apply, divf_apply, broadcast_apply, Cert.ColumnForms.broadcastTo_a1_ab_apply]
  rfl

/-! ## The host's whole-array spellings -/

/-- The host's dense layer: a `dot_general` plus the bias vector given a unit leading axis and broadcast down the
    rows; the bias row of `denseRows` is the vector viewed as `[1, b]`. -/
theorem host_dense {a K b : ℕ} {d : DotDims ⟨2, ![a, K]⟩ ⟨2, ![K, b]⟩ ⟨2, ![a, b]⟩} (H : RowsTimesCols d)
    (x : FVec Ideal ⟨2, ![a, K]⟩ .f32) (w : FVec Ideal ⟨2, ![K, b]⟩ .f32) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1])
    (hc : (⟨1, ![b]⟩ : Shape).ShapeCasts ⟨2, ![1, b]⟩) :
    addf (Host.dotGeneral (F := Ideal) d none x w) (broadcastInDim ⟨2, ![a, b]⟩ ![0, 1] h2 (broadcastInDim ⟨2, ![1, b]⟩ ![1] h1 bias))
      = denseRows x w (shapeCast ⟨2, ![1, b]⟩ bias hc) := by
  funext i
  obtain ⟨r, q, rfl⟩ : ∃ (r : Fin a) (q : Fin b), i = ix2 r q := ⟨i 0, i 1, eq_ix2 i⟩
  refine (congrFun (rowOf_dense_host H none x w bias h1 h2 r) q).trans ?_
  show dense (rowOf x r) w (fun j => bias (ix1 j)) q = dense (rowOf x r) w (rowOf (shapeCast ⟨2, ![1, b]⟩ bias hc) 0) q
  rw [rowOf_shapeCast_lead]
  rfl

/-- A vector `[a]` made a column by `broadcast_in_dim` reads, at `(r, 0)`, the vector at `r`. -/
theorem column_host_apply {α : Type} {a : ℕ} (v : (⟨1, ![a]⟩ : Shape).Idx → α)
    (h1 : (⟨1, ![a]⟩ : Shape).BroadcastsInDim ⟨2, ![a, 1]⟩ ![0]) (r : Fin a) :
    broadcastInDim ⟨2, ![a, 1]⟩ ![0] h1 v (ix2 r (0 : Fin 1)) = v (ix1 r) :=
  broadcastInDim_apply ![0] h1 v (ix2 r (0 : Fin 1)) (ix1 r) (fun ax => by
    match ax with
    | ⟨0, _⟩ => show r.val = if a = 1 then 0 else r.val; split <;> [(have := r.isLt; omega); rfl])

/-- A column `[a, 1]` broadcast along the second axis by `broadcast_in_dim` reads, at `(r, q)`, the column at `(r, 0)`. -/
theorem lanes_host_apply {α : Type} {a b : ℕ} (w : (⟨2, ![a, 1]⟩ : Shape).Idx → α)
    (h2 : (⟨2, ![a, 1]⟩ : Shape).BroadcastsInDim ⟨2, ![a, b]⟩ ![0, 1]) (r : Fin a) (q : Fin b) :
    broadcastInDim ⟨2, ![a, b]⟩ ![0, 1] h2 w (ix2 r q) = w (ix2 r (0 : Fin 1)) :=
  broadcastInDim_apply ![0, 1] h2 w (ix2 r q) (ix2 r (0 : Fin 1)) (fun ax => by
    match ax with
    | ⟨0, _⟩ => show r.val = if a = 1 then 0 else r.val; split <;> [(have := r.isLt; omega); rfl]
    | ⟨1, _⟩ => show (0 : ℕ) = if (1 : ℕ) = 1 then 0 else q.val; rw [if_pos rfl])

/-- The host's aggregation step: the in-degree vector clamped at one, made a column and broadcast along the features
    before the quotient; the rectifier as a maximum with a broadcast zero; the projection added. The column of
    `aggRows` is the in-degree vector viewed as `[a, 1]`. -/
theorem host_agg {a b : ℕ} (S xt : FVec Ideal ⟨2, ![a, b]⟩ .f32) (cnt : FVec Ideal ⟨1, ![a]⟩ .f32)
    (d0 : Fin 0 → Fin 1) (h0 : (⟨0, ![]⟩ : Shape).BroadcastsInDim ⟨1, ![a]⟩ d0)
    (h1 : (⟨1, ![a]⟩ : Shape).BroadcastsInDim ⟨2, ![a, 1]⟩ ![0])
    (h2 : (⟨2, ![a, 1]⟩ : Shape).BroadcastsInDim ⟨2, ![a, b]⟩ ![0, 1])
    (d3 : Fin 0 → Fin 2) (h3 : (⟨0, ![]⟩ : Shape).BroadcastsInDim ⟨2, ![a, b]⟩ d3)
    (hc : (⟨1, ![a]⟩ : Shape).ShapeCasts ⟨2, ![a, 1]⟩) :
    addf (maximumf (Host.divf S (broadcastInDim ⟨2, ![a, b]⟩ ![0, 1] h2 (broadcastInDim ⟨2, ![a, 1]⟩ ![0] h1
            (maximumf cnt (broadcastInDim ⟨1, ![a]⟩ d0 h0 (constant (F := Ideal) ⟨0, ![]⟩ .f32 0x3F800000#32))))))
          (broadcastInDim ⟨2, ![a, b]⟩ d3 h3 (constant (F := Ideal) ⟨0, ![]⟩ .f32 0x00000000#32))) xt
      = aggRows S (shapeCast ⟨2, ![a, 1]⟩ cnt hc) xt := by
  funext i
  obtain ⟨r, q, rfl⟩ : ∃ (r : Fin a) (q : Fin b), i = ix2 r q := ⟨i 0, i 1, eq_ix2 i⟩
  rw [aggRows_ix2, Cert.ColumnForms.shapeCast_a_a1_apply]
  show max (Ideal.div (S (ix2 r q)) (broadcastInDim ⟨2, ![a, b]⟩ ![0, 1] h2 (broadcastInDim ⟨2, ![a, 1]⟩ ![0] h1
      (maximumf cnt (broadcastInDim ⟨1, ![a]⟩ d0 h0 (constant (F := Ideal) ⟨0, ![]⟩ .f32 0x3F800000#32)))) (ix2 r q)))
      (Ideal.ofBits .f32 0x00000000#32) + xt (ix2 r q) = _
  rw [lanes_host_apply, column_host_apply]
  rfl

/-- The host's rectifier: a maximum with a broadcast zero. -/
theorem host_relu {a b : ℕ} (y : FVec Ideal ⟨2, ![a, b]⟩ .f32) (d3 : Fin 0 → Fin 2)
    (h3 : (⟨0, ![]⟩ : Shape).BroadcastsInDim ⟨2, ![a, b]⟩ d3) :
    maximumf y (broadcastInDim ⟨2, ![a, b]⟩ d3 h3 (constant (F := Ideal) ⟨0, ![]⟩ .f32 0x00000000#32)) = reluRows y := rfl

/-- The device's rectifier: a maximum with a splat zero. -/
theorem device_relu {a b : ℕ} (y : FVec Ideal ⟨2, ![a, b]⟩ .f32) :
    maximumf y (broadcast ⟨2, ![a, b]⟩ (Scalar.ofBits (F := Ideal) .f32 0x00000000#32)) = reluRows y := rfl

/-! ## A block of rows against the whole arrays -/

/-- If the blocks hold rows `R·n …` of their arrays, the aggregation step of the blocks at `(p, q)` is the aggregation
    step of the arrays at `(R·n + p, q)`. -/
theorem agg_block {A a b R : ℕ} (S XT : (⟨2, ![A, b]⟩ : Shape).Idx → EReal) (C : (⟨2, ![A, 1]⟩ : Shape).Idx → EReal)
    (x0 x2 : (⟨2, ![a, b]⟩ : Shape).Idx → EReal) (x1 : (⟨2, ![a, 1]⟩ : Shape).Idx → EReal) (n : ℕ)
    (h0 : ∀ (y : (⟨2, ![a, b]⟩ : Shape).Idx) (k : (⟨2, ![A, b]⟩ : Shape).Idx),
      (k 0).val = R * n + (y 0).val → (k 1).val = (y 1).val → x0 y = S k)
    (h1 : ∀ (y : (⟨2, ![a, 1]⟩ : Shape).Idx) (k : (⟨2, ![A, 1]⟩ : Shape).Idx),
      (k 0).val = R * n + (y 0).val → (k 1).val = (y 1).val → x1 y = C k)
    (h2 : ∀ (y : (⟨2, ![a, b]⟩ : Shape).Idx) (k : (⟨2, ![A, b]⟩ : Shape).Idx),
      (k 0).val = R * n + (y 0).val → (k 1).val = (y 1).val → x2 y = XT k)
    (y : (⟨2, ![a, b]⟩ : Shape).Idx) (i : (⟨2, ![A, b]⟩ : Shape).Idx)
    (hi0 : (i 0).val = R * n + (y 0).val) (hi1 : (i 1).val = (y 1).val) :
    aggRows x0 x1 x2 y = aggRows S C XT i := by
  obtain ⟨p, q, rfl⟩ : ∃ (p : Fin a) (q : Fin b), y = ix2 p q := ⟨y 0, y 1, eq_ix2 y⟩
  obtain ⟨r, q', rfl⟩ : ∃ (r : Fin A) (q' : Fin b), i = ix2 r q' := ⟨i 0, i 1, eq_ix2 i⟩
  obtain rfl : q' = q := Fin.ext hi1
  rw [aggRows_ix2, aggRows_ix2, h0 (ix2 p q') (ix2 r q') hi0 rfl, h2 (ix2 p q') (ix2 r q') hi0 rfl,
    h1 (ix2 p (0 : Fin 1)) (ix2 r (0 : Fin 1)) hi0 rfl]

end Cert.GraphAE

end
-- ==== Proof.Region0.lean ====
/-
  Region 0: the first projection `xt1 = x·W1 + b1`, tiled 2000 rows at a time.

  Grid point `t` stages rows `2000·t … 2000·t + 1999` of `x`, the whole weight matrix and the whole bias row, and
  writes back the dense layer of those rows. The 25 blocks tile the 50000 rows, so the output array ends holding the
  dense layer of the whole input: `denseRows x W1 b1`, whatever the arrays hold when the region is entered.
-/
import proofs.«121067_j84189948936516_1_alg».proof.Proof.Gen.KernelIdeal.Frame
import proofs.«121067_j84189948936516_1_alg».proof.Proof.LibMeanAggRows
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.RowLayers Cert.Layers Cert.GraphAE

variable (V : (c : Dev nD) → (b : Ref sig .tc) → Buf (Elt Ideal) ((c : Thread nD τ).loc b))

theorem hz : (![0, 0] : Fin 2 → Nat) = fun _ => 0 := funext fun a => by fin_cases a <;> rfl

/-- The body's product is rows times columns. -/
theorem rtc : RowsTimesCols dot_S2000x256_S256x256_S2000x256_1_0_0_1_n_n := plain_rowsTimesCols 2000 256 256

/-- The body's stored value is the dense layer of its loaded blocks. -/
theorem pay_eq (x0 : Vec Ideal S2000x256 .f32) (x1 : Vec Ideal S256x256 .f32) (x2 : Vec Ideal S1x256 .f32) :
    k0_pay1 (F := Ideal) x0 x1 x2 = denseRows x0 x1 x2 := by
  unfold k0_pay1
  rw [shapeCast_self]
  exact device_dense rtc x0 x1 x2 broadcasts_S1x256_S2000x256

/-- The index maps over the grid: the row windows move with the point, the weight and bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t` is rows `2000·t …` of the input array. -/
theorem rows_block (c : Dev nD) (t : Fin cfg0.N) (y : S2000x256.Idx) (k : S50000x256.Idx)
    (hk0 : (k 0).val = 2000 * t.val + (y 0).val) (hk1 : (k 1).val = (y 1).val) :
    (iblk0 V c 0 t : Vec Ideal S2000x256 .f32) y = (V c main_arg0 : S50000x256.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (k 0).val; rw [e0, hk0]; omega
  | ⟨1, _⟩ => show win0_0.index t (1 : Fin 2) * 256 + 1 * (y 1).val = (k 1).val; rw [e1, hk1]; omega

/-- The weight block is the whole weight matrix at every point. -/
theorem weight_block (c : Dev nD) (t : Fin cfg0.N) :
    (iblk0 V c 1 t : Vec Ideal S256x256 .f32) = (V c main_arg2 : S256x256.Idx → EReal) := by
  obtain ⟨-, -, e2, e3, -⟩ := idx_facts t
  funext y
  unfold iblk0
  rw [View.read_apply]
  show V c main_arg2 _ = V c main_arg2 _
  congr 1
  funext a
  apply Fin.ext
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- The bias block is the whole bias row at every point. -/
theorem bias_block (c : Dev nD) (t : Fin cfg0.N) :
    (iblk0 V c 2 t : Vec Ideal S1x256 .f32) = (V c main_v9 : S1x256.Idx → EReal) := by
  obtain ⟨-, -, -, -, e4, e5, -⟩ := idx_facts t
  funext y
  unfold iblk0
  rw [View.read_apply]
  show V c main_v9 _ = V c main_v9 _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 256 + 1 * (y 1).val = (y 1).val; rw [e5]; omega

/-- What point `t` writes back is block `t` of the dense layer of the whole arrays. -/
theorem flushed_eq (c : Dev nD) (t : Fin cfg0.N) :
    (dat0 V c).flushed 3 t = ((cfg0.win 3).blk t).view.read (Elt Ideal)
      (denseRows (V c main_arg0 : S50000x256.Idx → EReal) (V c main_arg2 : S256x256.Idx → EReal) (V c main_v9 : S1x256.Idx → EReal)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S1x256) hz]
  rw [pay_eq]
  obtain ⟨-, -, -, -, -, -, e6, e7⟩ := idx_facts t
  have hw := weight_block V c t
  have hb := bias_block V c t
  funext y
  show denseRows (iblk0 V c 0 t : Vec Ideal S2000x256 .f32) (iblk0 V c 1 t : Vec Ideal S256x256 .f32) (iblk0 V c 2 t : Vec Ideal S1x256 .f32) y
    = denseRows (V c main_arg0 : S50000x256.Idx → EReal) (V c main_arg2 : S256x256.Idx → EReal) (V c main_v9 : S1x256.Idx → EReal) (((cfg0.win 3).blk t).view.emb y)
  rw [hw, hb]
  exact dense_block (R := 2000) (V c main_arg0 : S50000x256.Idx → EReal) (V c main_arg2 : S256x256.Idx → EReal) (V c main_v9 : S1x256.Idx → EReal)
    (iblk0 V c 0 t : Vec Ideal S2000x256 .f32) t.val (fun y k h0 h1 => rows_block V c t y k h0 h1) y (((cfg0.win 3).blk t).view.emb y)
    (by show win0_3.index t (0 : Fin 2) * 2000 + 1 * (y 0).val = 2000 * t.val + (y 0).val; rw [e6]; omega)
    (by show win0_3.index t (1 : Fin 2) * 256 + 1 * (y 1).val = (y 1).val; rw [e7]; omega)

/-- An index of the output array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v10).slice (win0_3.rect t)).set ↔ _
  rw [View.set_slice_whole, Rect.mem_set_unit]
  exact Iff.rfl

/-- Row `r` is in the block of point `r / 2000`. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_3 _, ?_⟩
  rw [mem_blk]
  obtain ⟨-, -, -, -, -, -, e6, e7⟩ := idx_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e7]; omega

/-- The output array after the region: the dense layer of the arrays the region found. -/
theorem final (c : Dev nD) : (dat0 V c).arrAt 3 cfg0.N
    = denseRows (V c main_arg0 : S50000x256.Idx → EReal) (V c main_arg2 : S256x256.Idx → EReal) (V c main_v9 : S1x256.Idx → EReal) :=
  (dat0 V c).arrAt_eq_of_cover 3 _ (fun t _ => flushed_eq V c t) cover

end Cert.KernelIdeal.Region0

end
-- ==== Proof.Region1.lean ====
/-
  Region 1: the first layer's aggregation `h = max (S / max cnt 1) 0 + xt1`, tiled 2000 rows at a time.

  Grid point `t` stages rows `2000·t … 2000·t + 1999` of the summed messages, of the in-degree column and of the nodes' own projections, and
  writes back the aggregation step of those rows. Every entry of the output depends on its own row of the three
  arrays only, and the 25 blocks tile the 50000 rows, so the output array ends holding `aggRows` of the whole arrays.
-/
import proofs.«121067_j84189948936516_1_alg».proof.Proof.Gen.KernelIdeal.Frame
import proofs.«121067_j84189948936516_1_alg».proof.Proof.LibMeanAggRows
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.RowLayers Cert.Layers Cert.GraphAE

variable (V : (c : Dev nD) → (b : Ref sig .tc) → Buf (Elt Ideal) ((c : Thread nD τ).loc b))

theorem hz : (![0, 0] : Fin 2 → Nat) = fun _ => 0 := funext fun a => by fin_cases a <;> rfl

/-- The body's stored value, as a function of its loaded blocks: the aggregation step of the summed messages `v2`,
    the in-degree column `v0` and the node's own projection `v10`. -/
theorem pay_eq (v0 : Vec Ideal S2000x1 .f32) (v2 : Vec Ideal S2000x256 .f32) (v10 : Vec Ideal S2000x256 .f32) :
    k1_pay1 (F := Ideal) v0 v2 v10 = aggRows v2 v0 v10 := by
  unfold k1_pay1
  rw [shapeCast_self, shapeCast_self, shapeCast_self]
  exact device_agg v2 v10 v0 broadcasts_S2000x1_S2000x256

/-- The index maps over the grid: every window moves with the point, 2000 rows at a time. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The block of summed messages at point `t` is rows `2000·t …` of their array. -/
theorem sum_block (c : Dev nD) (t : Fin cfg1.N) (y : S2000x256.Idx) (k : S50000x256.Idx)
    (hk0 : (k 0).val = 2000 * t.val + (y 0).val) (hk1 : (k 1).val = (y 1).val) :
    (iblk1 V c 0 t : Vec Ideal S2000x256 .f32) y = (V c main_v20 : S50000x256.Idx → EReal) k := by
  obtain ⟨e0, e1, -⟩ := idx_facts t
  unfold iblk1
  rw [View.read_apply]
  show V c main_v20 _ = V c main_v20 _
  congr 1
  funext a
  apply Fin.ext
  match a with
  | ⟨0, _⟩ => show win1_0.index t (0 : Fin 2) * 2000 + 1 * (y 0).val = (k 0).val; rw [e0, hk0]; omega
  | ⟨1, _⟩ => show win1_0.index t (1 : Fin 2) * 256 + 1 * (y 1).val = (k 1).val; rw [e1, hk1]; omega

/-- The block of the in-degree column at point `t` is rows `2000·t …` of the column. -/
theorem cnt_block (c : Dev nD) (t : Fin cfg1.N) (y : S2000x1.Idx) (k : S50000x1.Idx)
    (hk0 : (k 0).val = 2000 * t.val + (y 0).val) (hk1 : (k 1).val = (y 1).val) :
    (iblk1 V c 1 t : Vec Ideal S2000x1 .f32) y = (V c main_v8 : S50000x1.Idx → EReal) k := by
  obtain ⟨-, -, e2, e3, -⟩ := idx_facts t
  unfold iblk1
  rw [View.read_apply]
  show V c main_v8 _ = V c main_v8 _
  congr 1
  funext a
  apply Fin.ext
  match a with
  | ⟨0, _⟩ => show win1_1.index t (0 : Fin 2) * 2000 + 1 * (y 0).val = (k 0).val; rw [e2, hk0]; omega
  | ⟨1, _⟩ => show win1_1.index t (1 : Fin 2) * 1 + 1 * (y 1).val = (k 1).val; rw [e3, hk1]; omega

/-- The block of the nodes' own projections at point `t` is rows `2000·t …` of their array. -/
theorem own_block (c : Dev nD) (t : Fin cfg1.N) (y : S2000x256.Idx) (k : S50000x256.Idx)
    (hk0 : (k 0).val = 2000 * t.val + (y 0).val) (hk1 : (k 1).val = (y 1).val) :
    (iblk1 V c 2 t : Vec Ideal S2000x256 .f32) y = (V c main_v10 : S50000x256.Idx → EReal) k := by
  obtain ⟨-, -, -, -, e4, e5, -⟩ := idx_facts t
  unfold iblk1
  rw [View.read_apply]
  show V c main_v10 _ = V c main_v10 _
  congr 1
  funext a
  apply Fin.ext
  match a with
  | ⟨0, _⟩ => show win1_2.index t (0 : Fin 2) * 2000 + 1 * (y 0).val = (k 0).val; rw [e4, hk0]; omega
  | ⟨1, _⟩ => show win1_2.index t (1 : Fin 2) * 256 + 1 * (y 1).val = (k 1).val; rw [e5, hk1]; omega

/-- What point `t` writes back is block `t` of the aggregation step of the whole arrays. -/
theorem flushed_eq (c : Dev nD) (t : Fin cfg1.N) :
    (dat1 V c).flushed 3 t = ((cfg1.win 3).blk t).view.read (Elt Ideal)
      (aggRows (V c main_v20 : S50000x256.Idx → EReal) (V c main_v8 : S50000x1.Idx → EReal) (V c main_v10 : S50000x256.Idx → EReal)) := by
  show (cfg1.win 3).cut (grid1.coords t) ((dat1 V c).after 3 t) = _
  rw [after1_3]
  unfold out1_3
  rw [View.canon_unit_zero hz]
  simp only [View.ld_unit_zero (S := S2000x256) hz, View.ld_unit_zero (S := S2000x1) hz]
  rw [pay_eq]
  obtain ⟨-, -, -, -, -, -, e6, e7⟩ := idx_facts t
  funext y
  show aggRows (iblk1 V c 0 t : Vec Ideal S2000x256 .f32) (iblk1 V c 1 t : Vec Ideal S2000x1 .f32) (iblk1 V c 2 t : Vec Ideal S2000x256 .f32) y
    = (aggRows (V c main_v20 : S50000x256.Idx → EReal) (V c main_v8 : S50000x1.Idx → EReal) (V c main_v10 : S50000x256.Idx → EReal)) (((cfg1.win 3).blk t).view.emb y)
  exact agg_block (R := 2000) (V c main_v20 : S50000x256.Idx → EReal) (V c main_v10 : S50000x256.Idx → EReal) (V c main_v8 : S50000x1.Idx → EReal)
    (iblk1 V c 0 t : Vec Ideal S2000x256 .f32) (iblk1 V c 2 t : Vec Ideal S2000x256 .f32) (iblk1 V c 1 t : Vec Ideal S2000x1 .f32) t.val
    (fun y k h0 h1 => sum_block V c t y k h0 h1) (fun y k h0 h1 => cnt_block V c t y k h0 h1) (fun y k h0 h1 => own_block V c t y k h0 h1)
    y (((cfg1.win 3).blk t).view.emb y)
    (by show win1_3.index t (0 : Fin 2) * 2000 + 1 * (y 0).val = 2000 * t.val + (y 0).val; rw [e6]; omega)
    (by show win1_3.index t (1 : Fin 2) * 256 + 1 * (y 1).val = (y 1).val; rw [e7]; omega)

/-- An index of the output array is in point `t`'s block iff each coordinate is in the block's range on its axis. -/
theorem mem_blk (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v21).slice (win1_3.rect t)).set ↔ _
  rw [View.set_slice_whole, Rect.mem_set_unit]
  exact Iff.rfl

/-- Row `r` is in the block of point `r / 2000`: the 25 blocks tile the 50000 rows. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_3 _, ?_⟩
  rw [mem_blk]
  obtain ⟨-, -, -, -, -, -, e6, e7⟩ := idx_facts ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 256 ≤ (i 1).val ∧ (i 1).val < win1_3.index _ (1 : Fin 2) * 256 + 256
    rw [e7]; omega

/-- The output array after the region, as one function of the arrays the region found. -/
theorem final (c : Dev nD) : (dat1 V c).arrAt 3 cfg1.N
    = aggRows (V c main_v20 : S50000x256.Idx → EReal) (V c main_v8 : S50000x1.Idx → EReal) (V c main_v10 : S50000x256.Idx → EReal) :=
  (dat1 V c).arrAt_eq_of_cover 3 _ (fun t _ => flushed_eq V c t) cover

end Cert.KernelIdeal.Region1

end
-- ==== Proof.Region2.lean ====
/-
  Region 2: the second projection `zt = h·W2 + b2`, tiled 2000 rows at a time.

  Grid point `t` stages rows `2000·t … 2000·t + 1999` of `h`, the whole weight matrix and the whole bias row, and writes back the dense layer
  of those rows. The 25 blocks tile the 50000 rows, so the output array ends holding `denseRows h W2 b2`.
-/
import proofs.«121067_j84189948936516_1_alg».proof.Proof.Gen.KernelIdeal.Frame
import proofs.«121067_j84189948936516_1_alg».proof.Proof.LibMeanAggRows
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.RowLayers Cert.Layers Cert.GraphAE

variable (V : (c : Dev nD) → (b : Ref sig .tc) → Buf (Elt Ideal) ((c : Thread nD τ).loc b))

theorem hz : (![0, 0] : Fin 2 → Nat) = fun _ => 0 := funext fun a => by fin_cases a <;> rfl

/-- The body's product is rows times columns. -/
theorem rtc : RowsTimesCols dot_S2000x256_S256x128_S2000x128_1_0_0_1_n_n := plain_rowsTimesCols 2000 256 128

/-- The body's stored value, as a function of its loaded blocks. -/
theorem pay_eq (x0 : Vec Ideal S2000x256 .f32) (x1 : Vec Ideal S256x128 .f32) (x2 : Vec Ideal S1x128 .f32) :
    k2_pay1 (F := Ideal) x0 x1 x2 = denseRows x0 x1 x2 := by
  unfold k2_pay1
  rw [shapeCast_self, shapeCast_self]
  exact device_dense rtc x0 x1 x2 broadcasts_S1x128_S2000x128

/-- The index maps over the grid: the row windows move with the point, the weight and bias windows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point `t` is rows `2000·t …` of the input array. -/
theorem rows_block (c : Dev nD) (t : Fin cfg2.N) (y : S2000x256.Idx) (k : S50000x256.Idx)
    (hk0 : (k 0).val = 2000 * t.val + (y 0).val) (hk1 : (k 1).val = (y 1).val) :
    (iblk2 V c 0 t : Vec Ideal S2000x256 .f32) y = (V c main_v21 : S50000x256.Idx → EReal) k := by
  obtain ⟨e0, e1, -⟩ := idx_facts t
  unfold iblk2
  rw [View.read_apply]
  show V c main_v21 _ = V c main_v21 _
  congr 1
  funext a
  apply Fin.ext
  match a with
  | ⟨0, _⟩ => show win2_0.index t (0 : Fin 2) * 2000 + 1 * (y 0).val = (k 0).val; rw [e0, hk0]; omega
  | ⟨1, _⟩ => show win2_0.index t (1 : Fin 2) * 256 + 1 * (y 1).val = (k 1).val; rw [e1, hk1]; omega

/-- The weight block is the whole weight matrix at every point. -/
theorem weight_block (c : Dev nD) (t : Fin cfg2.N) :
    (iblk2 V c 1 t : Vec Ideal S256x128 .f32) = (V c main_arg4 : S256x128.Idx → EReal) := by
  obtain ⟨-, -, e2, e3, -⟩ := idx_facts t
  funext y
  unfold iblk2
  rw [View.read_apply]
  show V c main_arg4 _ = V c main_arg4 _
  congr 1
  funext a
  apply Fin.ext
  match a with
  | ⟨0, _⟩ => show win2_1.index t (0 : Fin 2) * 256 + 1 * (y 0).val = (y 0).val; rw [e2]; omega
  | ⟨1, _⟩ => show win2_1.index t (1 : Fin 2) * 128 + 1 * (y 1).val = (y 1).val; rw [e3]; omega

/-- The bias block is the whole bias row at every point. -/
theorem bias_block (c : Dev nD) (t : Fin cfg2.N) :
    (iblk2 V c 2 t : Vec Ideal S1x128 .f32) = (V c main_v22 : S1x128.Idx → EReal) := by
  obtain ⟨-, -, -, -, e4, e5, -⟩ := idx_facts t
  funext y
  unfold iblk2
  rw [View.read_apply]
  show V c main_v22 _ = V c main_v22 _
  congr 1
  funext a
  apply Fin.ext
  match a with
  | ⟨0, _⟩ => show win2_2.index t (0 : Fin 2) * 1 + 1 * (y 0).val = (y 0).val; rw [e4]; omega
  | ⟨1, _⟩ => show win2_2.index t (1 : Fin 2) * 128 + 1 * (y 1).val = (y 1).val; rw [e5]; omega

/-- What point `t` writes back is block `t` of the layer of the whole arrays. -/
theorem flushed_eq (c : Dev nD) (t : Fin cfg2.N) :
    (dat2 V c).flushed 3 t = ((cfg2.win 3).blk t).view.read (Elt Ideal)
      (denseRows (V c main_v21 : S50000x256.Idx → EReal) (V c main_arg4 : S256x128.Idx → EReal) (V c main_v22 : S1x128.Idx → EReal)) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x128) hz, View.ld_unit_zero (S := S1x128) hz, View.ld_unit_zero (S := S2000x128) hz]
  rw [pay_eq]
  obtain ⟨-, -, -, -, -, -, e6, e7⟩ := idx_facts t
  have hw := weight_block V c t
  have hb := bias_block V c t
  funext y
  show denseRows (iblk2 V c 0 t : Vec Ideal S2000x256 .f32) (iblk2 V c 1 t : Vec Ideal S256x128 .f32) (iblk2 V c 2 t : Vec Ideal S1x128 .f32) y
    = (denseRows (V c main_v21 : S50000x256.Idx → EReal) (V c main_arg4 : S256x128.Idx → EReal) (V c main_v22 : S1x128.Idx → EReal)) (((cfg2.win 3).blk t).view.emb y)
  rw [hw, hb]
  exact dense_block (R := 2000) (V c main_v21 : S50000x256.Idx → EReal) (V c main_arg4 : S256x128.Idx → EReal) (V c main_v22 : S1x128.Idx → EReal)
    (iblk2 V c 0 t : Vec Ideal S2000x256 .f32) t.val (fun y k h0 h1 => rows_block V c t y k h0 h1) y (((cfg2.win 3).blk t).view.emb y)
    (by show win2_3.index t (0 : Fin 2) * 2000 + 1 * (y 0).val = 2000 * t.val + (y 0).val; rw [e6]; omega)
    (by show win2_3.index t (1 : Fin 2) * 128 + 1 * (y 1).val = (y 1).val; rw [e7]; omega)

/-- An index of the output array is in point `t`'s block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v23).slice (win2_3.rect t)).set ↔ _
  rw [View.set_slice_whole, Rect.mem_set_unit]
  exact Iff.rfl

/-- Row `r` is in the block of point `r / 2000`: the 25 blocks tile the 50000 rows. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_3 _, ?_⟩
  rw [mem_blk]
  obtain ⟨-, -, -, -, -, -, e6, e7⟩ := idx_facts ⟨(i 0).val / 2000, by rw [hN]; omega⟩
  intro a
  match a with
  | ⟨0, _⟩ =>
    show win2_3.index _ (0 : Fin 2) * 2000 ≤ (i 0).val ∧ (i 0).val < win2_3.index _ (0 : Fin 2) * 2000 + 2000
    rw [e6]; show (i 0).val / 2000 * 2000 ≤ (i 0).val ∧ (i 0).val < (i 0).val / 2000 * 2000 + 2000; omega
  | ⟨1, _⟩ =>
    show win2_3.index _ (1 : Fin 2) * 128 ≤ (i 1).val ∧ (i 1).val < win2_3.index _ (1 : Fin 2) * 128 + 128
    rw [e7]; omega

/-- The output array after the region, as one function of the arrays the region found. -/
theorem final (c : Dev nD) : (dat2 V c).arrAt 3 cfg2.N
    = denseRows (V c main_v21 : S50000x256.Idx → EReal) (V c main_arg4 : S256x128.Idx → EReal) (V c main_v22 : S1x128.Idx → EReal) :=
  (dat2 V c).arrAt_eq_of_cover 3 _ (fun t _ => flushed_eq V c t) cover

end Cert.KernelIdeal.Region2

end
-- ==== Proof.Region3.lean ====
/-
  Region 3: the second layer's aggregation `z = max (S / max cnt 1) 0 + zt`, tiled 2000 rows at a time.

  Grid point `t` stages rows `2000·t … 2000·t + 1999` of the summed messages, of the in-degree column and of the nodes' own projections, and
  writes back the aggregation step of those rows; the 25 blocks tile the 50000 rows, so the output array (the latent
  code, one of the two results) ends holding `aggRows` of the whole arrays.
-/
import proofs.«121067_j84189948936516_1_alg».proof.Proof.Gen.KernelIdeal.Frame
import proofs.«121067_j84189948936516_1_alg».proof.Proof.LibMeanAggRows
import Idealize.ShloMosaic.Lib.Pipeline.Value

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.RowLayers Cert.Layers Cert.GraphAE

variable (V : (c : Dev nD) → (b : Ref sig .tc) → Buf (Elt Ideal) ((c : Thread nD τ).loc b))

theorem hz : (![0, 0] : Fin 2 → Nat) = fun _ => 0 := funext fun a => by fin_cases a <;> rfl

/-- The body's stored value, as a function of its loaded blocks: the aggregation step of the summed messages `v2`,
    the in-degree column `v0` and the node's own projection `v10`. -/
theorem pay_eq (v0 : Vec Ideal S2000x1 .f32) (v2 : Vec Ideal S2000x128 .f32) (v10 : Vec Ideal S2000x128 .f32) :
    k3_pay1 (F := Ideal) v0 v2 v10 = aggRows v2 v0 v10 := by
  unfold k3_pay1
  rw [shapeCast_self, shapeCast_self, shapeCast_self]
  exact device_agg v2 v10 v0 broadcasts_S2000x1_S2000x128

/-- The index maps over the grid: every window moves with the point, 2000 rows at a time. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The block of summed messages at point `t` is rows `2000·t …` of their array. -/
theorem sum_block (c : Dev nD) (t : Fin cfg3.N) (y : S2000x128.Idx) (k : S50000x128.Idx)
    (hk0 : (k 0).val = 2000 * t.val + (y 0).val) (hk1 : (k 1).val = (y 1).val) :
    (iblk3 V c 0 t : Vec Ideal S2000x128 .f32) y = (V c main_v33 : S50000x128.Idx → EReal) k := by
  obtain ⟨e0, e1, -⟩ := idx_facts t
  unfold iblk3
  rw [View.read_apply]
  show V c main_v33 _ = V c main_v33 _
  congr 1
  funext a
  apply Fin.ext
  match a with
  | ⟨0, _⟩ => show win3_0.index t (0 : Fin 2) * 2000 + 1 * (y 0).val = (k 0).val; rw [e0, hk0]; omega
  | ⟨1, _⟩ => show win3_0.index t (1 : Fin 2) * 128 + 1 * (y 1).val = (k 1).val; rw [e1, hk1]; omega

/-- The block of the in-degree column at point `t` is rows `2000·t …` of the column. -/
theorem cnt_block (c : Dev nD) (t : Fin cfg3.N) (y : S2000x1.Idx) (k : S50000x1.Idx)
    (hk0 : (k 0).val = 2000 * t.val + (y 0).val) (hk1 : (k 1).val = (y 1).val) :
    (iblk3 V c 1 t : Vec Ideal S2000x1 .f32) y = (V c main_v8 : S50000x1.Idx → EReal) k := by
  obtain ⟨-, -, e2, e3, -⟩ := idx_facts t
  unfold iblk3
  rw [View.read_apply]
  show V c main_v8 _ = V c main_v8 _
  congr 1
  funext a
  apply Fin.ext
  match a with
  | ⟨0, _⟩ => show win3_1.index t (0 : Fin 2) * 2000 + 1 * (y 0).val = (k 0).val; rw [e2, hk0]; omega
  | ⟨1, _⟩ => show win3_1.index t (1 : Fin 2) * 1 + 1 * (y 1).val = (k 1).val; rw [e3, hk1]; omega

/-- The block of the nodes' own projections at point `t` is rows `2000·t …` of their array. -/
theorem own_block (c : Dev nD) (t : Fin cfg3.N) (y : S2000x128.Idx) (k : S50000x128.Idx)
    (hk0 : (k 0).val = 2000 * t.val + (y 0).val) (hk1 : (k 1).val = (y 1).val) :
    (iblk3 V c 2 t : Vec Ideal S2000x128 .f32) y = (V c main_v23 : S50000x128.Idx → EReal) k := by
  obtain ⟨-, -, -, -, e4, e5, -⟩ := idx_facts t
  unfold iblk3
  rw [View.read_apply]
  show V c main_v23 _ = V c main_v23 _
  congr 1
  funext a
  apply Fin.ext
  match a with
  | ⟨0, _⟩ => show win3_2.index t (0 : Fin 2) * 2000 + 1 * (y 0).val = (k 0).val; rw [e4, hk0]; omega
  | ⟨1, _⟩ => show win3_2.index t (1 : Fin 2) * 128 + 1 * (y 1).val = (k 1).val; rw [e5, hk1]; omega

/-- What point `t` writes back is block `t` of the aggregation step of the whole arrays. -/
theorem flushed_eq (c : Dev nD) (t : Fin cfg3.N) :
    (dat3 V c).flushed 3 t = ((cfg3.win 3).blk t).view.read (Elt Ideal)
      (aggRows (V c main_v33 : S50000x128.Idx → EReal) (V c main_v8 : S50000x1.Idx → EReal) (V c main_v23 : S50000x128.Idx → EReal)) := by
  show (cfg3.win 3).cut (grid3.coords t) ((dat3 V c).after 3 t) = _
  rw [after3_3]
  unfold out3_3
  rw [View.canon_unit_zero hz]
  simp only [View.ld_unit_zero (S := S2000x128) hz, View.ld_unit_zero (S := S2000x1) hz]
  rw [pay_eq]
  obtain ⟨-, -, -, -, -, -, e6, e7⟩ := idx_facts t
  funext y
  show aggRows (iblk3 V c 0 t : Vec Ideal S2000x128 .f32) (iblk3 V c 1 t : Vec Ideal S2000x1 .f32) (iblk3 V c 2 t : Vec Ideal S2000x128 .f32) y
    = (aggRows (V c main_v33 : S50000x128.Idx → EReal) (V c main_v8 : S50000x1.Idx → EReal) (V c main_v23 : S50000x128.Idx → EReal)) (((cfg3.win 3).blk t).view.emb y)
  exact agg_block (R := 2000) (V c main_v33 : S50000x128.Idx → EReal) (V c main_v23 : S50000x128.Idx → EReal) (V c main_v8 : S50000x1.Idx → EReal)
    (iblk3 V c 0 t : Vec Ideal S2000x128 .f32) (iblk3 V c 2 t : Vec Ideal S2000x128 .f32) (iblk3 V c 1 t : Vec Ideal S2000x1 .f32) t.val
    (fun y k h0 h1 => sum_block V c t y k h0 h1) (fun y k h0 h1 => cnt_block V c t y k h0 h1) (fun y k h0 h1 => own_block V c t y k h0 h1)
    y (((cfg3.win 3).blk t).view.emb y)
    (by show win3_3.index t (0 : Fin 2) * 2000 + 1 * (y 0).val = 2000 * t.val + (y 0).val; rw [e6]; omega)
    (by show win3_3.index t (1 : Fin 2) * 128 + 1 * (y 1).val = (y 1).val; rw [e7]; omega)

/-- An index of the output array is in point `t`'s block iff each coordinate is in the block's range on its axis. -/
theorem mem_blk (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v34).slice (win3_3.rect t)).set ↔ _
  rw [View.set_slice_whole, Rect.mem_set_unit]
  exact Iff.rfl

/-- Row `r` is in the block of point `r / 2000`: the 25 blocks tile the 50000 rows. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_3 _, ?_⟩
  rw [mem_blk]
  obtain ⟨-, -, -, -, -, -, e6, e7⟩ := idx_facts ⟨(i 0).val / 2000, by rw [hN]; omega⟩
  intro a
  match a with
  | ⟨0, _⟩ =>
    show win3_3.index _ (0 : Fin 2) * 2000 ≤ (i 0).val ∧ (i 0).val < win3_3.index _ (0 : Fin 2) * 2000 + 2000
    rw [e6]; show (i 0).val / 2000 * 2000 ≤ (i 0).val ∧ (i 0).val < (i 0).val / 2000 * 2000 + 2000; omega
  | ⟨1, _⟩ =>
    show win3_3.index _ (1 : Fin 2) * 128 ≤ (i 1).val ∧ (i 1).val < win3_3.index _ (1 : Fin 2) * 128 + 128
    rw [e7]; omega

/-- The output array after the region, as one function of the arrays the region found. -/
theorem final (c : Dev nD) : (dat3 V c).arrAt 3 cfg3.N
    = aggRows (V c main_v33 : S50000x128.Idx → EReal) (V c main_v8 : S50000x1.Idx → EReal) (V c main_v23 : S50000x128.Idx → EReal) :=
  (dat3 V c).arrAt_eq_of_cover 3 _ (fun t _ => flushed_eq V c t) cover

end Cert.KernelIdeal.Region3

end
-- ==== Proof.Region4.lean ====
/-
  Region 4: the decoder's hidden layer `max (z·Wd1 + bd1) 0`, tiled 2000 rows at a time.

  Grid point `t` stages rows `2000·t … 2000·t + 1999` of `z`, the whole weight matrix and the whole bias row, and writes back the rectified
  dense layer of those rows. The 25 blocks tile the 50000 rows, so the output array ends holding
  `reluRows (denseRows z Wd1 bd1)`.
-/
import proofs.«121067_j84189948936516_1_alg».proof.Proof.Gen.KernelIdeal.Frame
import proofs.«121067_j84189948936516_1_alg».proof.Proof.LibMeanAggRows
import Idealize.ShloMosaic.Lib.Pipeline.Value

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)
open Cert.RowLayers Cert.Layers Cert.GraphAE

variable (V : (c : Dev nD) → (b : Ref sig .tc) → Buf (Elt Ideal) ((c : Thread nD τ).loc b))

theorem hz : (![0, 0] : Fin 2 → Nat) = fun _ => 0 := funext fun a => by fin_cases a <;> rfl

/-- The body's product is rows times columns. -/
theorem rtc : RowsTimesCols dot_S2000x128_S128x512_S2000x512_1_0_0_1_n_n := plain_rowsTimesCols 2000 128 512

/-- The body's stored value, as a function of its loaded blocks. -/
theorem pay_eq (x0 : Vec Ideal S2000x128 .f32) (x1 : Vec Ideal S128x512 .f32) (x2 : Vec Ideal S1x512 .f32) :
    k4_pay1 (F := Ideal) x0 x1 x2 = reluRows (denseRows x0 x1 x2) := by
  unfold k4_pay1
  rw [shapeCast_self, shapeCast_self]
  exact congrArg reluRows (device_dense rtc x0 x1 x2 broadcasts_S1x512_S2000x512)

/-- The index maps over the grid: the row windows move with the point, the weight and bias windows stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The input block at point `t` is rows `2000·t …` of the input array. -/
theorem rows_block (c : Dev nD) (t : Fin cfg4.N) (y : S2000x128.Idx) (k : S50000x128.Idx)
    (hk0 : (k 0).val = 2000 * t.val + (y 0).val) (hk1 : (k 1).val = (y 1).val) :
    (iblk4 V c 0 t : Vec Ideal S2000x128 .f32) y = (V c main_v34 : S50000x128.Idx → EReal) k := by
  obtain ⟨e0, e1, -⟩ := idx_facts t
  unfold iblk4
  rw [View.read_apply]
  show V c main_v34 _ = V c main_v34 _
  congr 1
  funext a
  apply Fin.ext
  match a with
  | ⟨0, _⟩ => show win4_0.index t (0 : Fin 2) * 2000 + 1 * (y 0).val = (k 0).val; rw [e0, hk0]; omega
  | ⟨1, _⟩ => show win4_0.index t (1 : Fin 2) * 128 + 1 * (y 1).val = (k 1).val; rw [e1, hk1]; omega

/-- The weight block is the whole weight matrix at every point. -/
theorem weight_block (c : Dev nD) (t : Fin cfg4.N) :
    (iblk4 V c 1 t : Vec Ideal S128x512 .f32) = (V c main_arg6 : S128x512.Idx → EReal) := by
  obtain ⟨-, -, e2, e3, -⟩ := idx_facts t
  funext y
  unfold iblk4
  rw [View.read_apply]
  show V c main_arg6 _ = V c main_arg6 _
  congr 1
  funext a
  apply Fin.ext
  match a with
  | ⟨0, _⟩ => show win4_1.index t (0 : Fin 2) * 128 + 1 * (y 0).val = (y 0).val; rw [e2]; omega
  | ⟨1, _⟩ => show win4_1.index t (1 : Fin 2) * 512 + 1 * (y 1).val = (y 1).val; rw [e3]; omega

/-- The bias block is the whole bias row at every point. -/
theorem bias_block (c : Dev nD) (t : Fin cfg4.N) :
    (iblk4 V c 2 t : Vec Ideal S1x512 .f32) = (V c main_v35 : S1x512.Idx → EReal) := by
  obtain ⟨-, -, -, -, e4, e5, -⟩ := idx_facts t
  funext y
  unfold iblk4
  rw [View.read_apply]
  show V c main_v35 _ = V c main_v35 _
  congr 1
  funext a
  apply Fin.ext
  match a with
  | ⟨0, _⟩ => show win4_2.index t (0 : Fin 2) * 1 + 1 * (y 0).val = (y 0).val; rw [e4]; omega
  | ⟨1, _⟩ => show win4_2.index t (1 : Fin 2) * 512 + 1 * (y 1).val = (y 1).val; rw [e5]; omega

/-- What point `t` writes back is block `t` of the layer of the whole arrays. -/
theorem flushed_eq (c : Dev nD) (t : Fin cfg4.N) :
    (dat4 V c).flushed 3 t = ((cfg4.win 3).blk t).view.read (Elt Ideal)
      (reluRows (denseRows (V c main_v34 : S50000x128.Idx → EReal) (V c main_arg6 : S128x512.Idx → EReal) (V c main_v35 : S1x512.Idx → EReal))) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x512) hz, View.ld_unit_zero (S := S1x512) hz, View.ld_unit_zero (S := S2000x512) hz]
  rw [pay_eq]
  obtain ⟨-, -, -, -, -, -, e6, e7⟩ := idx_facts t
  have hw := weight_block V c t
  have hb := bias_block V c t
  funext y
  show reluRows (denseRows (iblk4 V c 0 t : Vec Ideal S2000x128 .f32) (iblk4 V c 1 t : Vec Ideal S128x512 .f32) (iblk4 V c 2 t : Vec Ideal S1x512 .f32)) y
    = (reluRows (denseRows (V c main_v34 : S50000x128.Idx → EReal) (V c main_arg6 : S128x512.Idx → EReal) (V c main_v35 : S1x512.Idx → EReal))) (((cfg4.win 3).blk t).view.emb y)
  rw [hw, hb]
  exact congrArg (fun v => max v (Ideal.ofBits .f32 0x00000000#32)) (dense_block (R := 2000) (V c main_v34 : S50000x128.Idx → EReal) (V c main_arg6 : S128x512.Idx → EReal) (V c main_v35 : S1x512.Idx → EReal)
    (iblk4 V c 0 t : Vec Ideal S2000x128 .f32) t.val (fun y k h0 h1 => rows_block V c t y k h0 h1) y (((cfg4.win 3).blk t).view.emb y)
    (by show win4_3.index t (0 : Fin 2) * 2000 + 1 * (y 0).val = 2000 * t.val + (y 0).val; rw [e6]; omega)
    (by show win4_3.index t (1 : Fin 2) * 512 + 1 * (y 1).val = (y 1).val; rw [e7]; omega))

/-- An index of the output array is in point `t`'s block iff each coordinate is in the block's range on its axis. -/
theorem mem_blk (t : Fin cfg4.N) (i : S50000x512.Idx) :
    i ∈ ((cfg4.win 3).blk t).view.set ↔ ∀ a : Fin 2, win4_3.index t a * S2000x512.size a ≤ (i a).val ∧ (i a).val < win4_3.index t a * S2000x512.size a + S2000x512.size a := by
  show i ∈ ((View.whole main_v36).slice (win4_3.rect t)).set ↔ _
  rw [View.set_slice_whole, Rect.mem_set_unit]
  exact Iff.rfl

/-- Row `r` is in the block of point `r / 2000`: the 25 blocks tile the 50000 rows. -/
theorem cover (i : S50000x512.Idx) : ∃ t : Fin cfg4.N, (cfg4.win 3).flush t = true ∧ i ∈ ((cfg4.win 3).blk t).view.set := by
  have hi0 : (i 0).val < 50000 := (i 0).isLt
  have hi1 : (i 1).val < 512 := (i 1).isLt
  have hN : cfg4.N = 25 := N_4
  refine ⟨⟨(i 0).val / 2000, by rw [hN]; omega⟩, flush4_3 _, ?_⟩
  rw [mem_blk]
  obtain ⟨-, -, -, -, -, -, e6, e7⟩ := idx_facts ⟨(i 0).val / 2000, by rw [hN]; omega⟩
  intro a
  match a with
  | ⟨0, _⟩ =>
    show win4_3.index _ (0 : Fin 2) * 2000 ≤ (i 0).val ∧ (i 0).val < win4_3.index _ (0 : Fin 2) * 2000 + 2000
    rw [e6]; show (i 0).val / 2000 * 2000 ≤ (i 0).val ∧ (i 0).val < (i 0).val / 2000 * 2000 + 2000; omega
  | ⟨1, _⟩ =>
    show win4_3.index _ (1 : Fin 2) * 512 ≤ (i 1).val ∧ (i 1).val < win4_3.index _ (1 : Fin 2) * 512 + 512
    rw [e7]; omega

/-- The output array after the region, as one function of the arrays the region found. -/
theorem final (c : Dev nD) : (dat4 V c).arrAt 3 cfg4.N
    = reluRows (denseRows (V c main_v34 : S50000x128.Idx → EReal) (V c main_arg6 : S128x512.Idx → EReal) (V c main_v35 : S1x512.Idx → EReal)) :=
  (dat4 V c).arrAt_eq_of_cover 3 _ (fun t _ => flushed_eq V c t) cover

end Cert.KernelIdeal.Region4

end
-- ==== Proof.Region5.lean ====
/-
  Region 5: the decoder's output layer `x̂ = hid·Wd2 + bd2`, tiled 2000 rows at a time.

  Grid point `t` stages rows `2000·t … 2000·t + 1999` of the hidden activations, the whole weight matrix and the whole bias row, and writes back
  the dense layer of those rows. The 25 blocks tile the 50000 rows, so the output array (the reconstruction, one of
  the two results) ends holding `denseRows hid Wd2 bd2`.
-/
import proofs.«121067_j84189948936516_1_alg».proof.Proof.Gen.KernelIdeal.Frame
import proofs.«121067_j84189948936516_1_alg».proof.Proof.LibMeanAggRows
import Idealize.ShloMosaic.Lib.Pipeline.Value

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)
open Cert.RowLayers Cert.Layers Cert.GraphAE

variable (V : (c : Dev nD) → (b : Ref sig .tc) → Buf (Elt Ideal) ((c : Thread nD τ).loc b))

theorem hz : (![0, 0] : Fin 2 → Nat) = fun _ => 0 := funext fun a => by fin_cases a <;> rfl

/-- The body's product is rows times columns. -/
theorem rtc : RowsTimesCols dot_S2000x512_S512x256_S2000x256_1_0_0_1_n_n := plain_rowsTimesCols 2000 512 256

/-- The body's stored value, as a function of its loaded blocks. -/
theorem pay_eq (x0 : Vec Ideal S2000x512 .f32) (x1 : Vec Ideal S512x256 .f32) (x2 : Vec Ideal S1x256 .f32) :
    k5_pay1 (F := Ideal) x0 x1 x2 = denseRows x0 x1 x2 := by
  unfold k5_pay1
  rw [shapeCast_self, shapeCast_self]
  exact device_dense rtc x0 x1 x2 broadcasts_S1x256_S2000x256

/-- The index maps over the grid: the row windows move with the point, the weight and bias windows stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The input block at point `t` is rows `2000·t …` of the input array. -/
theorem rows_block (c : Dev nD) (t : Fin cfg5.N) (y : S2000x512.Idx) (k : S50000x512.Idx)
    (hk0 : (k 0).val = 2000 * t.val + (y 0).val) (hk1 : (k 1).val = (y 1).val) :
    (iblk5 V c 0 t : Vec Ideal S2000x512 .f32) y = (V c main_v36 : S50000x512.Idx → EReal) k := by
  obtain ⟨e0, e1, -⟩ := idx_facts t
  unfold iblk5
  rw [View.read_apply]
  show V c main_v36 _ = V c main_v36 _
  congr 1
  funext a
  apply Fin.ext
  match a with
  | ⟨0, _⟩ => show win5_0.index t (0 : Fin 2) * 2000 + 1 * (y 0).val = (k 0).val; rw [e0, hk0]; omega
  | ⟨1, _⟩ => show win5_0.index t (1 : Fin 2) * 512 + 1 * (y 1).val = (k 1).val; rw [e1, hk1]; omega

/-- The weight block is the whole weight matrix at every point. -/
theorem weight_block (c : Dev nD) (t : Fin cfg5.N) :
    (iblk5 V c 1 t : Vec Ideal S512x256 .f32) = (V c main_arg8 : S512x256.Idx → EReal) := by
  obtain ⟨-, -, e2, e3, -⟩ := idx_facts t
  funext y
  unfold iblk5
  rw [View.read_apply]
  show V c main_arg8 _ = V c main_arg8 _
  congr 1
  funext a
  apply Fin.ext
  match a with
  | ⟨0, _⟩ => show win5_1.index t (0 : Fin 2) * 512 + 1 * (y 0).val = (y 0).val; rw [e2]; omega
  | ⟨1, _⟩ => show win5_1.index t (1 : Fin 2) * 256 + 1 * (y 1).val = (y 1).val; rw [e3]; omega

/-- The bias block is the whole bias row at every point. -/
theorem bias_block (c : Dev nD) (t : Fin cfg5.N) :
    (iblk5 V c 2 t : Vec Ideal S1x256 .f32) = (V c main_v37 : S1x256.Idx → EReal) := by
  obtain ⟨-, -, -, -, e4, e5, -⟩ := idx_facts t
  funext y
  unfold iblk5
  rw [View.read_apply]
  show V c main_v37 _ = V c main_v37 _
  congr 1
  funext a
  apply Fin.ext
  match a with
  | ⟨0, _⟩ => show win5_2.index t (0 : Fin 2) * 1 + 1 * (y 0).val = (y 0).val; rw [e4]; omega
  | ⟨1, _⟩ => show win5_2.index t (1 : Fin 2) * 256 + 1 * (y 1).val = (y 1).val; rw [e5]; omega

/-- What point `t` writes back is block `t` of the layer of the whole arrays. -/
theorem flushed_eq (c : Dev nD) (t : Fin cfg5.N) :
    (dat5 V c).flushed 3 t = ((cfg5.win 3).blk t).view.read (Elt Ideal)
      (denseRows (V c main_v36 : S50000x512.Idx → EReal) (V c main_arg8 : S512x256.Idx → EReal) (V c main_v37 : S1x256.Idx → EReal)) := by
  show (cfg5.win 3).cut (grid5.coords t) ((dat5 V c).after 3 t) = _
  rw [after5_3]
  unfold out5_3
  rw [View.canon_unit_zero hz]
  simp only [View.ld_unit_zero (S := S2000x512) hz, View.ld_unit_zero (S := S512x256) hz, View.ld_unit_zero (S := S1x256) hz, View.ld_unit_zero (S := S2000x256) hz]
  rw [pay_eq]
  obtain ⟨-, -, -, -, -, -, e6, e7⟩ := idx_facts t
  have hw := weight_block V c t
  have hb := bias_block V c t
  funext y
  show denseRows (iblk5 V c 0 t : Vec Ideal S2000x512 .f32) (iblk5 V c 1 t : Vec Ideal S512x256 .f32) (iblk5 V c 2 t : Vec Ideal S1x256 .f32) y
    = (denseRows (V c main_v36 : S50000x512.Idx → EReal) (V c main_arg8 : S512x256.Idx → EReal) (V c main_v37 : S1x256.Idx → EReal)) (((cfg5.win 3).blk t).view.emb y)
  rw [hw, hb]
  exact dense_block (R := 2000) (V c main_v36 : S50000x512.Idx → EReal) (V c main_arg8 : S512x256.Idx → EReal) (V c main_v37 : S1x256.Idx → EReal)
    (iblk5 V c 0 t : Vec Ideal S2000x512 .f32) t.val (fun y k h0 h1 => rows_block V c t y k h0 h1) y (((cfg5.win 3).blk t).view.emb y)
    (by show win5_3.index t (0 : Fin 2) * 2000 + 1 * (y 0).val = 2000 * t.val + (y 0).val; rw [e6]; omega)
    (by show win5_3.index t (1 : Fin 2) * 256 + 1 * (y 1).val = (y 1).val; rw [e7]; omega)

/-- An index of the output array is in point `t`'s block iff each coordinate is in the block's range on its axis. -/
theorem mem_blk (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v38).slice (win5_3.rect t)).set ↔ _
  rw [View.set_slice_whole, Rect.mem_set_unit]
  exact Iff.rfl

/-- Row `r` is in the block of point `r / 2000`: the 25 blocks tile the 50000 rows. -/
theorem cover (i : S50000x256.Idx) : ∃ t : Fin cfg5.N, (cfg5.win 3).flush t = true ∧ i ∈ ((cfg5.win 3).blk t).view.set := by
  have hi0 : (i 0).val < 50000 := (i 0).isLt
  have hi1 : (i 1).val < 256 := (i 1).isLt
  have hN : cfg5.N = 25 := N_5
  refine ⟨⟨(i 0).val / 2000, by rw [hN]; omega⟩, flush5_3 _, ?_⟩
  rw [mem_blk]
  obtain ⟨-, -, -, -, -, -, e6, e7⟩ := idx_facts ⟨(i 0).val / 2000, by rw [hN]; omega⟩
  intro a
  match a with
  | ⟨0, _⟩ =>
    show win5_3.index _ (0 : Fin 2) * 2000 ≤ (i 0).val ∧ (i 0).val < win5_3.index _ (0 : Fin 2) * 2000 + 2000
    rw [e6]; show (i 0).val / 2000 * 2000 ≤ (i 0).val ∧ (i 0).val < (i 0).val / 2000 * 2000 + 2000; omega
  | ⟨1, _⟩ =>
    show win5_3.index _ (1 : Fin 2) * 256 ≤ (i 1).val ∧ (i 1).val < win5_3.index _ (1 : Fin 2) * 256 + 256
    rw [e7]; omega

/-- The output array after the region, as one function of the arrays the region found. -/
theorem final (c : Dev nD) : (dat5 V c).arrAt 3 cfg5.N
    = denseRows (V c main_v36 : S50000x512.Idx → EReal) (V c main_arg8 : S512x256.Idx → EReal) (V c main_v37 : S1x256.Idx → EReal) :=
  (dat5 V c).arrAt_eq_of_cover 3 _ (fun t _ => flushed_eq V c t) cover

end Cert.KernelIdeal.Region5

end
-- ==== Proof.RefStages.lean ====
/-
  The reference's stages as the layer functions.

  The reference computes the auto-encoder in the host's whole-array spellings; its run is the composition of one stage
  per operation. Grouped by layer, the stages are exactly the node-wise functions of the layer library applied to the
  stages before them: each projection is a dense layer whose bias row is the bias vector viewed as `[1, b]`; each
  aggregation is `aggRows` of the summed messages, of the in-degree vector viewed as a column, and of the projection;
  the decoder is a rectified dense layer followed by a dense layer. The gathers and scatters between the layers are
  left as they are printed: the kernel's host side performs the very same operations.
-/
import proofs.«121067_j84189948936516_1_alg».proof.Proof.Gen.ReferenceIdeal.Read
import proofs.«121067_j84189948936516_1_alg».proof.Proof.LibMeanAggRows

noncomputable section

namespace Cert.ReferenceIdeal.Stages

open Cert.ReferenceIdeal Cert.ReferenceIdeal.Gen Cert.ReferenceIdeal.Read Idealize.ShloMosaic Idealize.ShloMosaic.ValueIdx
open Cert.RowLayers Cert.Layers Cert.GraphAE

/-- The first projection: `x·W1 + b1`. -/
theorem xt1_eq (x0 : (⟨S50000x256, .f32⟩ : BufTy).Contents (Elt Ideal)) (x2 : (⟨S256x256, .f32⟩ : BufTy).Contents (Elt Ideal)) (x3 : (⟨S256, .f32⟩ : BufTy).Contents (Elt Ideal)) (hc : S256.ShapeCasts S1x256) :
    val_main_v7 (F := Ideal) x0 x2 x3 = denseRows x0 x2 (shapeCast S1x256 x3 hc) := by
  unfold val_main_v7 val_main_v4 val_main_v6 val_main_v5
  exact host_dense (d := dot_S50000x256_S256x256_S50000x256_1_0_0_1_n_n) (plain_rowsTimesCols 50000 256 256) x0 x2 x3
    bcast_S256_S1x256_1 bcast_S1x256_S50000x256_0_1 hc

/-- The first layer's output: the aggregation step of the summed messages, the in-degree and the projection. -/
theorem h_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (hc : S50000.ShapeCasts S50000x1) :
    val_main_v28 (F := Ideal) x0 x1 x2 x3
      = aggRows (val_main_v17 (F := Ideal) x0 x1 x2 x3) (shapeCast S50000x1 (val_main_v21 (F := Ideal) x1) hc)
          (val_main_v7 (F := Ideal) x0 x2 x3) := by
  unfold val_main_v28 val_main_v27 val_main_v26 val_main_v25 val_main_v24 val_main_v23 val_main_v22 val_main_cst_3
    val_main_call0_v0 val_main_call0_cst
  exact host_agg _ _ _ ![] bcast_S_S50000 bcast_S50000_S50000x1_0 bcast_S50000x1_S50000x256_0_1 ![] bcast_S_S50000x256 hc

/-- The second projection: `h·W2 + b2`. -/
theorem zt_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (hc : S128.ShapeCasts S1x128) :
    val_main_v32 (F := Ideal) x0 x1 x2 x3 x4 x5
      = denseRows (val_main_v28 (F := Ideal) x0 x1 x2 x3) x4 (shapeCast S1x128 x5 hc) := by
  unfold val_main_v32 val_main_v29 val_main_v31 val_main_v30
  exact host_dense (d := dot_S50000x256_S256x128_S50000x128_1_0_0_1_n_n) (plain_rowsTimesCols 50000 256 128) _ x4 x5
    bcast_S128_S1x128_1 bcast_S1x128_S50000x128_0_1 hc

/-- The in-degree is computed twice by the reference, by the same operations of the same argument. -/
theorem cnt_again (x1 : (⟨S2x800000, .i32⟩ : BufTy).Contents (Elt Ideal)) :
    val_main_v46 (F := Ideal) x1 = val_main_v21 (F := Ideal) x1 := by
  unfold val_main_v46 val_main_v21 val_main_v44 val_main_v19 val_main_v45 val_main_v20 val_main_v43 val_main_v18
    val_main_cst_8 val_main_cst_2 val_main_cst_7 val_main_cst_1
  rfl

/-- The second layer's output, the latent code. -/
theorem z_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (hc : S50000.ShapeCasts S50000x1) :
    val_main_v53 (F := Ideal) x0 x1 x2 x3 x4 x5
      = aggRows (val_main_v42 (F := Ideal) x0 x1 x2 x3 x4 x5) (shapeCast S50000x1 (val_main_v21 (F := Ideal) x1) hc)
          (val_main_v32 (F := Ideal) x0 x1 x2 x3 x4 x5) := by
  rw [← cnt_again]
  unfold val_main_v53 val_main_v52 val_main_v51 val_main_v50 val_main_v49 val_main_v48 val_main_v47 val_main_cst_9
    val_main_call1_v0 val_main_call1_cst
  exact host_agg _ _ _ ![] bcast_S_S50000 bcast_S50000_S50000x1_0 bcast_S50000x1_S50000x128_0_1 ![] bcast_S_S50000x128 hc

/-- The decoder's hidden layer: `max (z·Wd1 + bd1) 0`. -/
theorem hid_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x512, .f32⟩ : BufTy).Contents (Elt Ideal)) (x7 : (⟨S512, .f32⟩ : BufTy).Contents (Elt Ideal)) (hc : S512.ShapeCasts S1x512) :
    val_main_v58 (F := Ideal) x0 x1 x2 x3 x4 x5 x6 x7
      = reluRows (denseRows (val_main_v53 (F := Ideal) x0 x1 x2 x3 x4 x5) x6 (shapeCast S1x512 x7 hc)) := by
  unfold val_main_v58 val_main_v57 val_main_v54 val_main_v56 val_main_v55 val_main_call2_v0 val_main_call2_cst
  exact congrArg reluRows (host_dense (d := dot_S50000x128_S128x512_S50000x512_1_0_0_1_n_n) (plain_rowsTimesCols 50000 128 512) _ x6 x7
    bcast_S512_S1x512_1 bcast_S1x512_S50000x512_0_1 hc)

/-- The reconstruction: `hid·Wd2 + bd2`. -/
theorem out_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x512, .f32⟩ : BufTy).Contents (Elt Ideal)) (x7 : (⟨S512, .f32⟩ : BufTy).Contents (Elt Ideal)) (x8 : (⟨S512x256, .f32⟩ : BufTy).Contents (Elt Ideal)) (x9 : (⟨S256, .f32⟩ : BufTy).Contents (Elt Ideal)) (hc : S256.ShapeCasts S1x256) :
    val_main_v62 (F := Ideal) x0 x1 x2 x3 x4 x5 x6 x7 x8 x9
      = denseRows (val_main_v58 (F := Ideal) x0 x1 x2 x3 x4 x5 x6 x7) x8 (shapeCast S1x256 x9 hc) := by
  unfold val_main_v62 val_main_v59 val_main_v61 val_main_v60
  exact host_dense (d := dot_S50000x512_S512x256_S50000x256_1_0_0_1_n_n) (plain_rowsTimesCols 50000 512 256) _ x8 x9
    bcast_S256_S1x256_1 bcast_S1x256_S50000x256_0_1 hc

end Cert.ReferenceIdeal.Stages

end
-- ==== Proof.Walk.lean ====
/-
  The idealized kernel's two results as the reference's stages of the kernel's own arguments.

  The buffer contents at @main's twelve segment boundaries are a fold from the launch memory. Walking the fold, every
  buffer a later segment reads is named as a function of the ten argument arrays: the edge sources, the edge targets
  and the in-degree column after the first stretch of host operations; after each region its output array, which is
  the layer function of the arrays the region found (the blocks-to-array step of that region); after each later
  stretch the gathered and scatter-added messages, which are the host's own operations applied to arrays already
  named. A buffer that a segment neither writes nor stages as an output keeps its contents across it, so an argument
  or an earlier result read late is walked back to where it was made. Each named array is the stage the reference's
  run computes at the same place, so the reconstruction and the latent code end at the reference's two results.
-/
import proofs.«121067_j84189948936516_1_alg».proof.Proof.Region0
import proofs.«121067_j84189948936516_1_alg».proof.Proof.Region1
import proofs.«121067_j84189948936516_1_alg».proof.Proof.Region2
import proofs.«121067_j84189948936516_1_alg».proof.Proof.Region3
import proofs.«121067_j84189948936516_1_alg».proof.Proof.Region4
import proofs.«121067_j84189948936516_1_alg».proof.Proof.Region5
import proofs.«121067_j84189948936516_1_alg».proof.Proof.RefStages
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Cert.Layers Cert.GraphAE
open Cert.ReferenceIdeal.Read

variable (m : (ℓ : Loc nD τ sig) → Buf (Elt Ideal) ℓ) (ρ : Dev nD → PrngReg) (c : Dev nD)

-- the ten argument arrays as launched on core `c`
set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)

/-! ## What a segment leaves alone -/

/-- The first stretch of host operations writes none of these buffers. -/
theorem keep1 : ∀ b ∈ ([main_arg0, main_arg2, main_arg5, main_arg4, main_arg7, main_arg6, main_arg9, main_arg8] : List (Ref sig .tc)),
    W1 m ρ c (Proc.devRef .tc b) = W0 m ρ c (Proc.devRef .tc b) := by
  intro b hb
  simp only [List.mem_cons, List.mem_nil_iff, or_false] at hb
  rcases hb with rfl | rfl | rfl | rfl | rfl | rfl | rfl | rfl
  all_goals (show StableHlo.after hostOps0 (W0 m ρ c) _ = _; dsimp only [hostOps0]; after_results)

/-- Region 0 stages none of these buffers, so it leaves them as it found them. -/
theorem keep2 : ∀ b ∈ ([main_arg5, main_arg4, main_arg7, main_arg6, main_arg9, main_arg8, main_v1, main_v3, main_v8] : List (Ref sig .tc)),
    W2 m ρ c (Proc.devRef .tc b) = W1 m ρ c (Proc.devRef .tc b) :=
  fun b hb => W2_of_ne m ρ c b
    ((by decide : ∀ b ∈ ([main_arg5, main_arg4, main_arg7, main_arg6, main_arg9, main_arg8, main_v1, main_v3, main_v8] : List (Ref sig .tc)), ∀ w : Fin 4, Pipeline.arrRef spec0 w ≠ b) b hb)

/-- The second stretch of host operations writes none of these buffers. -/
theorem keep3 : ∀ b ∈ ([main_arg5, main_arg4, main_arg7, main_arg6, main_arg9, main_arg8, main_v1, main_v3, main_v8, main_v10] : List (Ref sig .tc)),
    W3 m ρ c (Proc.devRef .tc b) = W2 m ρ c (Proc.devRef .tc b) := by
  intro b hb
  simp only [List.mem_cons, List.mem_nil_iff, or_false] at hb
  rcases hb with rfl | rfl | rfl | rfl | rfl | rfl | rfl | rfl | rfl | rfl
  all_goals (show StableHlo.after hostOps1 (W2 m ρ c) _ = _; dsimp only [hostOps1]; after_results)

/-- Region 1 stages none of these buffers, so it leaves them as it found them. -/
theorem keep4 : ∀ b ∈ ([main_arg5, main_arg4, main_arg7, main_arg6, main_arg9, main_arg8, main_v1, main_v3] : List (Ref sig .tc)),
    W4 m ρ c (Proc.devRef .tc b) = W3 m ρ c (Proc.devRef .tc b) :=
  fun b hb => W4_of_ne m ρ c b
    ((by decide : ∀ b ∈ ([main_arg5, main_arg4, main_arg7, main_arg6, main_arg9, main_arg8, main_v1, main_v3] : List (Ref sig .tc)), ∀ w : Fin 4, Pipeline.arrRef spec1 w ≠ b) b hb)

/-- The third stretch of host operations writes none of these buffers. -/
theorem keep5 : ∀ b ∈ ([main_arg4, main_arg7, main_arg6, main_arg9, main_arg8, main_v1, main_v3, main_v8, main_v21] : List (Ref sig .tc)),
    W5 m ρ c (Proc.devRef .tc b) = W4 m ρ c (Proc.devRef .tc b) := by
  intro b hb
  simp only [List.mem_cons, List.mem_nil_iff, or_false] at hb
  rcases hb with rfl | rfl | rfl | rfl | rfl | rfl | rfl | rfl | rfl
  all_goals (show StableHlo.after hostOps2 (W4 m ρ c) _ = _; dsimp only [hostOps2]; after_results)

/-- Region 2 stages none of these buffers, so it leaves them as it found them. -/
theorem keep6 : ∀ b ∈ ([main_arg7, main_arg6, main_arg9, main_arg8, main_v1, main_v3, main_v8] : List (Ref sig .tc)),
    W6 m ρ c (Proc.devRef .tc b) = W5 m ρ c (Proc.devRef .tc b) :=
  fun b hb => W6_of_ne m ρ c b
    ((by decide : ∀ b ∈ ([main_arg7, main_arg6, main_arg9, main_arg8, main_v1, main_v3, main_v8] : List (Ref sig .tc)), ∀ w : Fin 4, Pipeline.arrRef spec2 w ≠ b) b hb)

/-- The fourth stretch of host operations writes none of these buffers. -/
theorem keep7 : ∀ b ∈ ([main_arg7, main_arg6, main_arg9, main_arg8, main_v8, main_v23] : List (Ref sig .tc)),
    W7 m ρ c (Proc.devRef .tc b) = W6 m ρ c (Proc.devRef .tc b) := by
  intro b hb
  simp only [List.mem_cons, List.mem_nil_iff, or_false] at hb
  rcases hb with rfl | rfl | rfl | rfl | rfl | rfl
  all_goals (show StableHlo.after hostOps3 (W6 m ρ c) _ = _; dsimp only [hostOps3]; after_results)

/-- Region 3 stages none of these buffers, so it leaves them as it found them. -/
theorem keep8 : ∀ b ∈ ([main_arg7, main_arg6, main_arg9, main_arg8] : List (Ref sig .tc)),
    W8 m ρ c (Proc.devRef .tc b) = W7 m ρ c (Proc.devRef .tc b) :=
  fun b hb => W8_of_ne m ρ c b
    ((by decide : ∀ b ∈ ([main_arg7, main_arg6, main_arg9, main_arg8] : List (Ref sig .tc)), ∀ w : Fin 4, Pipeline.arrRef spec3 w ≠ b) b hb)

/-- The fifth stretch of host operations writes none of these buffers. -/
theorem keep9 : ∀ b ∈ ([main_arg6, main_arg9, main_arg8, main_v34] : List (Ref sig .tc)),
    W9 m ρ c (Proc.devRef .tc b) = W8 m ρ c (Proc.devRef .tc b) := by
  intro b hb
  simp only [List.mem_cons, List.mem_nil_iff, or_false] at hb
  rcases hb with rfl | rfl | rfl | rfl
  all_goals (show StableHlo.after hostOps4 (W8 m ρ c) _ = _; dsimp only [hostOps4]; after_results)

/-- Region 4 stages none of these buffers, so it leaves them as it found them. -/
theorem keep10 : ∀ b ∈ ([main_arg9, main_arg8] : List (Ref sig .tc)),
    W10 m ρ c (Proc.devRef .tc b) = W9 m ρ c (Proc.devRef .tc b) :=
  fun b hb => W10_of_ne m ρ c b
    ((by decide : ∀ b ∈ ([main_arg9, main_arg8] : List (Ref sig .tc)), ∀ w : Fin 4, Pipeline.arrRef spec4 w ≠ b) b hb)

/-- The sixth stretch of host operations writes none of these buffers. -/
theorem keep11 : ∀ b ∈ ([main_arg8, main_v34, main_v36] : List (Ref sig .tc)),
    W11 m ρ c (Proc.devRef .tc b) = W10 m ρ c (Proc.devRef .tc b) := by
  intro b hb
  simp only [List.mem_cons, List.mem_nil_iff, or_false] at hb
  rcases hb with rfl | rfl | rfl
  all_goals (show StableHlo.after hostOps5 (W10 m ρ c) _ = _; dsimp only [hostOps5]; after_results)

/-- Region 5 stages none of these buffers, so it leaves them as it found them. -/
theorem keep12 : ∀ b ∈ ([main_v34] : List (Ref sig .tc)),
    W12 m ρ c (Proc.devRef .tc b) = W11 m ρ c (Proc.devRef .tc b) :=
  fun b hb => W12_of_ne m ρ c b
    ((by decide : ∀ b ∈ ([main_v34] : List (Ref sig .tc)), ∀ w : Fin 4, Pipeline.arrRef spec5 w ≠ b) b hb)

/-! ## After the first stretch of host operations: the edge lists, the in-degree column, the first bias row -/

theorem w1_arg0 : W1 m ρ c (Proc.devRef .tc main_arg0) = a0 :=
  (keep1 m ρ c main_arg0 (by decide)).trans (rfl)

theorem w1_arg2 : W1 m ρ c (Proc.devRef .tc main_arg2) = a2 :=
  (keep1 m ρ c main_arg2 (by decide)).trans (rfl)

/-- The edge sources: row 0 of the edge list. -/
theorem w1_v1 : W1 m ρ c (Proc.devRef .tc main_v1) = val_main_v1 (F := Ideal) a1 := by
  show StableHlo.after hostOps0 (W0 m ρ c) (Proc.devRef .tc main_v1) = _
  dsimp only [hostOps0]
  after_results
  try rfl

/-- The edge targets: row 1 of the edge list. -/
theorem w1_v3 : W1 m ρ c (Proc.devRef .tc main_v3) = val_main_v3 (F := Ideal) a1 := by
  show StableHlo.after hostOps0 (W0 m ρ c) (Proc.devRef .tc main_v3) = _
  dsimp only [hostOps0]
  after_results
  try rfl

/-- The in-degree (ones scatter-added at the edge targets), kept as a column. -/
theorem w1_v8 : W1 m ρ c (Proc.devRef .tc main_v8) = shapeCast S50000x1 (val_main_v21 (F := Ideal) a1) shapeCasts_S50000_S50000x1 := by
  show StableHlo.after hostOps0 (W0 m ρ c) (Proc.devRef .tc main_v8) = _
  dsimp only [hostOps0]
  after_results
  unfold val_main_v21 val_main_v19 val_main_v20 val_main_v18 val_main_cst_2 val_main_cst_1 val_main_v3 val_main_v2
  rfl

theorem w1_v9 : W1 m ρ c (Proc.devRef .tc main_v9) = shapeCast S1x256 a3 shapeCasts_S256_S1x256 := by
  show StableHlo.after hostOps0 (W0 m ρ c) (Proc.devRef .tc main_v9) = _
  dsimp only [hostOps0]
  after_results
  try rfl

/-- Region 0 leaves the first projection `x·W1 + b1`. -/
theorem xt1 : W2 m ρ c (Proc.devRef .tc main_v10) = val_main_v7 (F := Ideal) a0 a2 a3 := by
  have e0 : (V1 m ρ c main_arg0 : S50000x256.Idx → EReal) = a0 := w1_arg0 m ρ c
  have e1 : (V1 m ρ c main_arg2 : S256x256.Idx → EReal) = a2 := w1_arg2 m ρ c
  have e2 : (V1 m ρ c main_v9 : S1x256.Idx → EReal) = shapeCast S1x256 a3 shapeCasts_S256_S1x256 := w1_v9 m ρ c
  rw [Cert.ReferenceIdeal.Stages.xt1_eq _ _ _ shapeCasts_S256_S1x256]
  refine (W2_arr m ρ c 3).trans ?_
  rw [Region0.final (V1 m ρ) c, e0, e1, e2]

/-! ## The first layer's messages and aggregation -/

theorem w2_v1 : W2 m ρ c (Proc.devRef .tc main_v1) = val_main_v1 (F := Ideal) a1 :=
  (keep2 m ρ c main_v1 (by decide)).trans (w1_v1 m ρ c)

theorem w2_v3 : W2 m ρ c (Proc.devRef .tc main_v3) = val_main_v3 (F := Ideal) a1 :=
  (keep2 m ρ c main_v3 (by decide)).trans (w1_v3 m ρ c)

/-- The projected features gathered at the (wrapped) edge sources and scatter-added at the edge targets: the host's
    own operations on arrays already named. -/
theorem msg1 : W3 m ρ c (Proc.devRef .tc main_v20) = val_main_v17 (F := Ideal) a0 a1 a2 a3 := by
  show StableHlo.after hostOps1 (W2 m ρ c) (Proc.devRef .tc main_v20) = _
  dsimp only [hostOps1]
  after_results
  rw [w2_v1 m ρ c, w2_v3 m ρ c, xt1 m ρ c]
  unfold val_main_v17 val_main_v15 val_main_cst val_main_v16 val_main_v14 val_main_v13 val_main_v12 val_main_v9 val_main_v8
    val_main_c val_main_v11 val_main_v10 val_main_c_0
  rfl

theorem w3_v8 : W3 m ρ c (Proc.devRef .tc main_v8) = shapeCast S50000x1 (val_main_v21 (F := Ideal) a1) shapeCasts_S50000_S50000x1 :=
  (keep3 m ρ c main_v8 (by decide)).trans ((keep2 m ρ c main_v8 (by decide)).trans (w1_v8 m ρ c))

theorem w3_v10 : W3 m ρ c (Proc.devRef .tc main_v10) = val_main_v7 (F := Ideal) a0 a2 a3 :=
  (keep3 m ρ c main_v10 (by decide)).trans (xt1 m ρ c)

/-- Region 1 leaves the first layer's output. -/
theorem h1 : W4 m ρ c (Proc.devRef .tc main_v21) = val_main_v28 (F := Ideal) a0 a1 a2 a3 := by
  have e0 : (V3 m ρ c main_v20 : S50000x256.Idx → EReal) = val_main_v17 (F := Ideal) a0 a1 a2 a3 := msg1 m ρ c
  have e1 : (V3 m ρ c main_v8 : S50000x1.Idx → EReal) = shapeCast S50000x1 (val_main_v21 (F := Ideal) a1) shapeCasts_S50000_S50000x1 := w3_v8 m ρ c
  have e2 : (V3 m ρ c main_v10 : S50000x256.Idx → EReal) = val_main_v7 (F := Ideal) a0 a2 a3 := w3_v10 m ρ c
  rw [Cert.ReferenceIdeal.Stages.h_eq _ _ _ _ shapeCasts_S50000_S50000x1]
  refine (W4_arr m ρ c 3).trans ?_
  rw [Region1.final (V3 m ρ) c, e0, e1, e2]

/-! ## The second projection -/

theorem w4_arg5 : W4 m ρ c (Proc.devRef .tc main_arg5) = a5 :=
  (keep4 m ρ c main_arg5 (by decide)).trans ((keep3 m ρ c main_arg5 (by decide)).trans ((keep2 m ρ c main_arg5 (by decide)).trans ((keep1 m ρ c main_arg5 (by decide)).trans (rfl))))

theorem w5_v22 : W5 m ρ c (Proc.devRef .tc main_v22) = shapeCast S1x128 a5 shapeCasts_S128_S1x128 := by
  show StableHlo.after hostOps2 (W4 m ρ c) (Proc.devRef .tc main_v22) = _
  dsimp only [hostOps2]
  after_results
  rw [w4_arg5 m ρ c]
  rfl

theorem w5_v21 : W5 m ρ c (Proc.devRef .tc main_v21) = val_main_v28 (F := Ideal) a0 a1 a2 a3 :=
  (keep5 m ρ c main_v21 (by decide)).trans (h1 m ρ c)

theorem w5_arg4 : W5 m ρ c (Proc.devRef .tc main_arg4) = a4 :=
  (keep5 m ρ c main_arg4 (by decide)).trans ((keep4 m ρ c main_arg4 (by decide)).trans ((keep3 m ρ c main_arg4 (by decide)).trans ((keep2 m ρ c main_arg4 (by decide)).trans ((keep1 m ρ c main_arg4 (by decide)).trans (rfl)))))

/-- Region 2 leaves the second projection `h·W2 + b2`. -/
theorem zt : W6 m ρ c (Proc.devRef .tc main_v23) = val_main_v32 (F := Ideal) a0 a1 a2 a3 a4 a5 := by
  have e0 : (V5 m ρ c main_v21 : S50000x256.Idx → EReal) = val_main_v28 (F := Ideal) a0 a1 a2 a3 := w5_v21 m ρ c
  have e1 : (V5 m ρ c main_arg4 : S256x128.Idx → EReal) = a4 := w5_arg4 m ρ c
  have e2 : (V5 m ρ c main_v22 : S1x128.Idx → EReal) = shapeCast S1x128 a5 shapeCasts_S128_S1x128 := w5_v22 m ρ c
  rw [Cert.ReferenceIdeal.Stages.zt_eq _ _ _ _ _ _ shapeCasts_S128_S1x128]
  refine (W6_arr m ρ c 3).trans ?_
  rw [Region2.final (V5 m ρ) c, e0, e1, e2]

/-! ## The second layer's messages and aggregation: the latent code -/

theorem w6_v1 : W6 m ρ c (Proc.devRef .tc main_v1) = val_main_v1 (F := Ideal) a1 :=
  (keep6 m ρ c main_v1 (by decide)).trans ((keep5 m ρ c main_v1 (by decide)).trans ((keep4 m ρ c main_v1 (by decide)).trans ((keep3 m ρ c main_v1 (by decide)).trans (w2_v1 m ρ c))))

theorem w6_v3 : W6 m ρ c (Proc.devRef .tc main_v3) = val_main_v3 (F := Ideal) a1 :=
  (keep6 m ρ c main_v3 (by decide)).trans ((keep5 m ρ c main_v3 (by decide)).trans ((keep4 m ρ c main_v3 (by decide)).trans ((keep3 m ρ c main_v3 (by decide)).trans (w2_v3 m ρ c))))

theorem msg2 : W7 m ρ c (Proc.devRef .tc main_v33) = val_main_v42 (F := Ideal) a0 a1 a2 a3 a4 a5 := by
  show StableHlo.after hostOps3 (W6 m ρ c) (Proc.devRef .tc main_v33) = _
  dsimp only [hostOps3]
  after_results
  rw [w6_v1 m ρ c, w6_v3 m ρ c, zt m ρ c]
  unfold val_main_v42 val_main_v40 val_main_cst_6 val_main_v41 val_main_v39 val_main_v38 val_main_v37 val_main_v34 val_main_v33
    val_main_c_4 val_main_v36 val_main_v35 val_main_c_5
  rfl

theorem w7_v8 : W7 m ρ c (Proc.devRef .tc main_v8) = shapeCast S50000x1 (val_main_v21 (F := Ideal) a1) shapeCasts_S50000_S50000x1 :=
  (keep7 m ρ c main_v8 (by decide)).trans ((keep6 m ρ c main_v8 (by decide)).trans ((keep5 m ρ c main_v8 (by decide)).trans (((W4_arr m ρ c 1).trans (((dat1 (V3 m ρ) c).arrAt_in 1 rfl _).trans (A_eq1 (V3 m ρ) c 1))).trans (w3_v8 m ρ c))))

theorem w7_v23 : W7 m ρ c (Proc.devRef .tc main_v23) = val_main_v32 (F := Ideal) a0 a1 a2 a3 a4 a5 :=
  (keep7 m ρ c main_v23 (by decide)).trans (zt m ρ c)

/-- Region 3 leaves the latent code. -/
theorem z : W8 m ρ c (Proc.devRef .tc main_v34) = val_main_v53 (F := Ideal) a0 a1 a2 a3 a4 a5 := by
  have e0 : (V7 m ρ c main_v33 : S50000x128.Idx → EReal) = val_main_v42 (F := Ideal) a0 a1 a2 a3 a4 a5 := msg2 m ρ c
  have e1 : (V7 m ρ c main_v8 : S50000x1.Idx → EReal) = shapeCast S50000x1 (val_main_v21 (F := Ideal) a1) shapeCasts_S50000_S50000x1 := w7_v8 m ρ c
  have e2 : (V7 m ρ c main_v23 : S50000x128.Idx → EReal) = val_main_v32 (F := Ideal) a0 a1 a2 a3 a4 a5 := w7_v23 m ρ c
  rw [Cert.ReferenceIdeal.Stages.z_eq _ _ _ _ _ _ shapeCasts_S50000_S50000x1]
  refine (W8_arr m ρ c 3).trans ?_
  rw [Region3.final (V7 m ρ) c, e0, e1, e2]

/-! ## The decoder -/

theorem w8_arg7 : W8 m ρ c (Proc.devRef .tc main_arg7) = a7 :=
  (keep8 m ρ c main_arg7 (by decide)).trans ((keep7 m ρ c main_arg7 (by decide)).trans ((keep6 m ρ c main_arg7 (by decide)).trans ((keep5 m ρ c main_arg7 (by decide)).trans ((keep4 m ρ c main_arg7 (by decide)).trans ((keep3 m ρ c main_arg7 (by decide)).trans ((keep2 m ρ c main_arg7 (by decide)).trans ((keep1 m ρ c main_arg7 (by decide)).trans (rfl))))))))

theorem w9_v35 : W9 m ρ c (Proc.devRef .tc main_v35) = shapeCast S1x512 a7 shapeCasts_S512_S1x512 := by
  show StableHlo.after hostOps4 (W8 m ρ c) (Proc.devRef .tc main_v35) = _
  dsimp only [hostOps4]
  after_results
  rw [w8_arg7 m ρ c]
  rfl

theorem w9_v34 : W9 m ρ c (Proc.devRef .tc main_v34) = val_main_v53 (F := Ideal) a0 a1 a2 a3 a4 a5 :=
  (keep9 m ρ c main_v34 (by decide)).trans (z m ρ c)

theorem w9_arg6 : W9 m ρ c (Proc.devRef .tc main_arg6) = a6 :=
  (keep9 m ρ c main_arg6 (by decide)).trans ((keep8 m ρ c main_arg6 (by decide)).trans ((keep7 m ρ c main_arg6 (by decide)).trans ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans ((keep1 m ρ c main_arg6 (by decide)).trans (rfl)))))))))

/-- Region 4 leaves the decoder's hidden layer. -/
theorem hid : W10 m ρ c (Proc.devRef .tc main_v36) = val_main_v58 (F := Ideal) a0 a1 a2 a3 a4 a5 a6 a7 := by
  have e0 : (V9 m ρ c main_v34 : S50000x128.Idx → EReal) = val_main_v53 (F := Ideal) a0 a1 a2 a3 a4 a5 := w9_v34 m ρ c
  have e1 : (V9 m ρ c main_arg6 : S128x512.Idx → EReal) = a6 := w9_arg6 m ρ c
  have e2 : (V9 m ρ c main_v35 : S1x512.Idx → EReal) = shapeCast S1x512 a7 shapeCasts_S512_S1x512 := w9_v35 m ρ c
  rw [Cert.ReferenceIdeal.Stages.hid_eq _ _ _ _ _ _ _ _ shapeCasts_S512_S1x512]
  refine (W10_arr m ρ c 3).trans ?_
  rw [Region4.final (V9 m ρ) c, e0, e1, e2]

theorem w10_arg9 : W10 m ρ c (Proc.devRef .tc main_arg9) = a9 :=
  (keep10 m ρ c main_arg9 (by decide)).trans ((keep9 m ρ c main_arg9 (by decide)).trans ((keep8 m ρ c main_arg9 (by decide)).trans ((keep7 m ρ c main_arg9 (by decide)).trans ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans ((keep1 m ρ c main_arg9 (by decide)).trans (rfl))))))))))

theorem w11_v37 : W11 m ρ c (Proc.devRef .tc main_v37) = shapeCast S1x256 a9 shapeCasts_S256_S1x256 := by
  show StableHlo.after hostOps5 (W10 m ρ c) (Proc.devRef .tc main_v37) = _
  dsimp only [hostOps5]
  after_results
  rw [w10_arg9 m ρ c]
  rfl

theorem w11_v36 : W11 m ρ c (Proc.devRef .tc main_v36) = val_main_v58 (F := Ideal) a0 a1 a2 a3 a4 a5 a6 a7 :=
  (keep11 m ρ c main_v36 (by decide)).trans (hid m ρ c)

theorem w11_arg8 : W11 m ρ c (Proc.devRef .tc main_arg8) = a8 :=
  (keep11 m ρ c main_arg8 (by decide)).trans ((keep10 m ρ c main_arg8 (by decide)).trans ((keep9 m ρ c main_arg8 (by decide)).trans ((keep8 m ρ c main_arg8 (by decide)).trans ((keep7 m ρ c main_arg8 (by decide)).trans ((keep6 m ρ c main_arg8 (by decide)).trans ((keep5 m ρ c main_arg8 (by decide)).trans ((keep4 m ρ c main_arg8 (by decide)).trans ((keep3 m ρ c main_arg8 (by decide)).trans ((keep2 m ρ c main_arg8 (by decide)).trans ((keep1 m ρ c main_arg8 (by decide)).trans (rfl)))))))))))

/-! ## The two results -/

/-- Region 5 leaves the reconstruction: the reference's first result, of the kernel's arguments. -/
theorem xhat : W12 m ρ c (Proc.devRef .tc main_v38) = val_main_v62 (F := Ideal) a0 a1 a2 a3 a4 a5 a6 a7 a8 a9 := by
  have e0 : (V11 m ρ c main_v36 : S50000x512.Idx → EReal) = val_main_v58 (F := Ideal) a0 a1 a2 a3 a4 a5 a6 a7 := w11_v36 m ρ c
  have e1 : (V11 m ρ c main_arg8 : S512x256.Idx → EReal) = a8 := w11_arg8 m ρ c
  have e2 : (V11 m ρ c main_v37 : S1x256.Idx → EReal) = shapeCast S1x256 a9 shapeCasts_S256_S1x256 := w11_v37 m ρ c
  rw [Cert.ReferenceIdeal.Stages.out_eq _ _ _ _ _ _ _ _ _ _ shapeCasts_S256_S1x256]
  refine (W12_arr m ρ c 3).trans ?_
  rw [Region5.final (V11 m ρ) c, e0, e1, e2]

/-- The latent code is still in its buffer at the end: the reference's second result, of the kernel's arguments. -/
theorem zfinal : W12 m ρ c (Proc.devRef .tc main_v34) = val_main_v53 (F := Ideal) a0 a1 a2 a3 a4 a5 :=
  (keep12 m ρ c main_v34 (by decide)).trans ((keep11 m ρ c main_v34 (by decide)).trans (((W10_arr m ρ c 0).trans (((dat4 (V9 m ρ) c).arrAt_in 0 rfl _).trans (A_eq4 (V9 m ρ) c 0))).trans (w9_v34 m ρ c)))

end Cert.KernelIdeal.Walk

end
-- ==== Proof.lean ====
/-
  The certificate of a two-layer graph auto-encoder with mean aggregation: the tiled kernel program against its
  array-at-a-time reference, equal as functions over the extended reals.

  Both programs compute, for node features `x` and an edge list `(src, dst)`:
      xt1 = x·W1 + b1,   h = max (S1 / max cnt 1) 0 + xt1,   zt = h·W2 + b2,   z = max (S2 / max cnt 1) 0 + zt,
      x̂ = (max (z·Wd1 + bd1) 0)·Wd2 + bd2,
  where `S1`, `S2` are the projected features gathered at the edge sources and scatter-added at the edge targets and
  `cnt` is the in-degree; the results are `x̂` and `z`. The kernel program runs the four dense layers and the two
  aggregation steps as regions tiled 2000 rows at a time and leaves the gathers and scatters to the same host
  operations the reference uses; it computes the in-degree once and keeps it as a column, where the reference computes
  it per layer as a vector. Entry by entry the two programs evaluate the same expression, so no law of arithmetic and
  no finiteness of the inputs is needed: the precondition is never opened.

  The modules: `LibMeanAggRows` (the layer functions, and the two programs' spellings of them), `Region0 … Region5` (each region's
  output array as the layer function of the arrays it found), `KernelRun` (the kernel's run with its results read at the
  end), `Walk` (the contents at the segment boundaries, named one after the other down to the results), `RefStages` (the
  reference's stages as the layer functions). The frames of the two kernel programs are the generated ones; the
  reference's frame is its generated run with the results dropped; the idealization rewrote nothing, so `preserves` is
  trivial.
-/
import proofs.«121067_j84189948936516_1_alg».proof.Defs
import proofs.«121067_j84189948936516_1_alg».proof.Proof.Gen.Kernel
import proofs.«121067_j84189948936516_1_alg».proof.Proof.Gen.Kernel.Frame
import proofs.«121067_j84189948936516_1_alg».proof.Proof.Gen.KernelIdeal
import proofs.«121067_j84189948936516_1_alg».proof.Proof.Gen.KernelIdeal.Frame
import proofs.«121067_j84189948936516_1_alg».proof.Proof.Gen.ReferenceIdeal
import proofs.«121067_j84189948936516_1_alg».proof.Proof.Gen.ReferenceIdeal.Run
import proofs.«121067_j84189948936516_1_alg».proof.Proof.Gen.ReferenceIdeal.Read
import proofs.«121067_j84189948936516_1_alg».proof.Proof.Gen.Pre_finite_inputs
import proofs.«121067_j84189948936516_1_alg».proof.Proof.KernelRun
import proofs.«121067_j84189948936516_1_alg».proof.Proof.Walk
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs run, and both end with the reconstruction and the latent
    code at the reference's two stages of the arguments: the kernel by the walk through its segment boundaries, the
    reference by its generated run. -/
theorem algebraic : Cert.algebraic_KernelIdeal_ReferenceIdeal := by
  intro m ρ m' ρ' _ hagree
  refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    ?_, ?_⟩
  · exact (θ_run Cert.KernelIdeal.defs _ _).mono
      (fun r h c => ⟨(h c).1.trans (Cert.KernelIdeal.Walk.xhat m ρ c), (h c).2.1.trans (Cert.KernelIdeal.Walk.zfinal m ρ c), (h c).2.2⟩)
      (Cert.KernelIdeal.Results.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9⟩ := hagree c
      rw [Cert.ReferenceIdeal.Read.val_main_v62_eq, e0, e1, e2, e3, e4, e5, e6, e7, e8, e9]
    · obtain ⟨e0, e1, e2, e3, e4, e5, -⟩ := hagree c
      rw [Cert.ReferenceIdeal.Read.val_main_v53_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
